-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v37_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v37_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x24 : Shape := ⟨2, ![100000, 24]⟩
abbrev S2x3200000 : Shape := ⟨2, ![2, 3200000]⟩
abbrev S32x24 : Shape := ⟨2, ![32, 24]⟩
abbrev S32 : Shape := ⟨1, ![32]⟩
abbrev S16x32 : Shape := ⟨2, ![16, 32]⟩
abbrev S16 : Shape := ⟨1, ![16]⟩
abbrev S1x88 : Shape := ⟨2, ![1, 88]⟩
abbrev S1 : Shape := ⟨1, ![1]⟩
abbrev S_ : Shape := ⟨0, ![]⟩

class Facts : Prop where
  bcast_S_S100000x24 : S_.BroadcastsInDim S100000x24 (![] : Fin 0 → Fin S100000x24.rank)
  reducesTo_S100000x24_S_d0_1 : S100000x24.ReducesTo [0, 1] S_
  h_S_ : 0 < S_.numel
  bcast_S_S32x24 : S_.BroadcastsInDim S32x24 (![] : Fin 0 → Fin S32x24.rank)
  reducesTo_S32x24_S_d0_1 : S32x24.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x88 : S_.BroadcastsInDim S1x88 (![] : Fin 0 → Fin S1x88.rank)
  reducesTo_S1x88_S_d0_1 : S1x88.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x88 .f32) (main_arg9 : FVec F S1 .f32) (main_v33 : IVec S_ 1) : IVec S_ 1 :=
  let main_v34 : FVec F S1x88 .f32 := Host.absf main_arg8
  let main_cst_12 : FVec F S_ .f32 := constant S_ .f32 0x7F800000#32
  let main_v35 : FVec F S1x88 .f32 := broadcastInDim S1x88 ![] bcast_S_S1x88 main_cst_12
  let main_v36 : IVec S1x88 1 := cmpf .olt main_v34 main_v35
  let main_c_13 : IVec S_ 1 := constantI S_ 1 1#1
  let main_v37 : IVec S_ 1 := (fun x v => Host.reduce IntOp.andi x v reducesTo_S1x88_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S16x32 .f32) (main_arg6 : FVec F S16 .f32) (main_arg7 : FVec F S16x32 .f32) (main_arg8 : FVec F S1x88 .f32) (main_arg9 : FVec F S1 .f32) (main_v13 : IVec S_ 1) (main_v16 : IVec S32x24 1) : IVec S_ 1 :=
  let main_c_5 : IVec S_ 1 := constantI S_ 1 1#1
  let main_v17 : IVec S_ 1 := (fun x v => Host.reduce IntOp.andi x v reducesTo_S32x24_S_d0_1 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x32 .f32 := Host.absf main_arg7
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg8 main_arg9 main_v33

def fn {F : FTy → Type} [FloatOps F] (main_arg0 : FVec F S100000x24 .f32) (main_arg1 : IVec S2x3200000 32) (main_arg2 : FVec F S32x24 .f32) (main_arg3 : FVec F S32 .f32) (main_arg4 : FVec F S32x24 .f32) (main_arg5 : FVec F S16x32 .f32) (main_arg6 : FVec F S16 .f32) (main_arg7 : FVec F S16x32 .f32) (main_arg8 : FVec F S1x88 .f32) (main_arg9 : FVec F S1 .f32) : IVec S_ 1 :=
  let main_v0 : FVec F S100000x24 .f32 := Host.absf main_arg0
  let main_cst : FVec F S_ .f32 := constant S_ .f32 0x7F800000#32
  let main_v1 : FVec F S100000x24 .f32 := broadcastInDim S100000x24 ![] bcast_S_S100000x24 main_cst
  let main_v2 : IVec S100000x24 1 := cmpf .olt main_v0 main_v1
  let main_c : IVec S_ 1 := constantI S_ 1 1#1
  let main_v3 : IVec S_ 1 := (fun x v => Host.reduce IntOp.andi x v reducesTo_S100000x24_S_d0_1 h_S_) main_v2 main_c
  let main_v4 : FVec F S32x24 .f32 := Host.absf main_arg2
  let main_cst_0 : FVec F S_ .f32 := constant S_ .f32 0x7F800000#32
  let main_v5 : FVec F S32x24 .f32 := broadcastInDim S32x24 ![] bcast_S_S32x24 main_cst_0
  let main_v6 : IVec S32x24 1 := cmpf .olt main_v4 main_v5
  let main_c_1 : IVec S_ 1 := constantI S_ 1 1#1
  let main_v7 : IVec S_ 1 := (fun x v => Host.reduce IntOp.andi x v reducesTo_S32x24_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x24 .f32 := Host.absf main_arg4
  let main_cst_4 : FVec F S_ .f32 := constant S_ .f32 0x7F800000#32
  let main_v15 : FVec F S32x24 .f32 := broadcastInDim S32x24 ![] bcast_S_S32x24 main_cst_4
  let main_v16 : IVec S32x24 1 := cmpf .olt main_v14 main_v15
  fn_part1 (F := F) main_arg5 main_arg6 main_arg7 main_arg8 main_arg9 main_v13 main_v16
-- ==== Kernel.lean ====
abbrev S100000x24 : Shape := ⟨2, ![100000, 24]⟩
abbrev S2x3200000 : Shape := ⟨2, ![2, 3200000]⟩
abbrev S32x24 : Shape := ⟨2, ![32, 24]⟩
abbrev S32 : Shape := ⟨1, ![32]⟩
abbrev S16x32 : Shape := ⟨2, ![16, 32]⟩
abbrev S16 : Shape := ⟨1, ![16]⟩
abbrev S1x88 : Shape := ⟨2, ![1, 88]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x24 : Shape := ⟨2, ![3200000, 24]⟩
abbrev S100000x72 : Shape := ⟨2, ![100000, 72]⟩
abbrev S100000x32 : Shape := ⟨2, ![100000, 32]⟩
abbrev S10000x24 : Shape := ⟨2, ![10000, 24]⟩
abbrev S10000x72 : Shape := ⟨2, ![10000, 72]⟩
abbrev S10000x32 : Shape := ⟨2, ![10000, 32]⟩
abbrev S24x32 : Shape := ⟨2, ![24, 32]⟩
abbrev S1x32 : Shape := ⟨2, ![1, 32]⟩
abbrev S3200000x32 : Shape := ⟨2, ![3200000, 32]⟩
abbrev S100000x88 : Shape := ⟨2, ![100000, 88]⟩
abbrev S10000x88 : Shape := ⟨2, ![10000, 88]⟩
abbrev S10000x1 : Shape := ⟨2, ![10000, 1]⟩
abbrev S32x16 : Shape := ⟨2, ![32, 16]⟩
abbrev S10000x16 : Shape := ⟨2, ![10000, 16]⟩
abbrev S1x16 : Shape := ⟨2, ![1, 16]⟩
abbrev S88x1 : Shape := ⟨2, ![88, 1]⟩
abbrev S1x1 : Shape := ⟨2, ![1, 1]⟩

abbrev nBuf : Space → Nat
  | .hbm => 63
  | .vmem => 26
  | .smem => 0
  | _ => 0

abbrev bufTy : (tb : Table) → Fin (tcTables nBuf tb) → BufTy
  | .hbm, ⟨0, _⟩ => ⟨S100000x24, .f32⟩
  | .hbm, ⟨1, _⟩ => ⟨S2x3200000, .i32⟩
  | .hbm, ⟨2, _⟩ => ⟨S32x24, .f32⟩
  | .hbm, ⟨3, _⟩ => ⟨S32, .f32⟩
  | .hbm, ⟨4, _⟩ => ⟨S32x24, .f32⟩
  | .hbm, ⟨5, _⟩ => ⟨S16x32, .f32⟩
  | .hbm, ⟨6, _⟩ => ⟨S16, .f32⟩
  | .hbm, ⟨7, _⟩ => ⟨S16x32, .f32⟩
  | .hbm, ⟨8, _⟩ => ⟨S1x88, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x24, .f32⟩
  | .hbm, ⟨37, _⟩ => ⟨S_, .f32⟩
  | .hbm, ⟨38, _⟩ => ⟨S100000x24, .f32⟩
  | .hbm, ⟨39, _⟩ => ⟨S3200000x1, .i32⟩
  | .hbm, ⟨40, _⟩ => ⟨S100000x24, .f32⟩
  | .hbm, ⟨41, _⟩ => ⟨S100000x24, .f32⟩
  | .hbm, ⟨42, _⟩ => ⟨S100000x24, .f32⟩
  | .hbm, ⟨43, _⟩ => ⟨S100000x72, .f32⟩
  | .hbm, ⟨44, _⟩ => ⟨S100000x32, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x32, .f32⟩
  | .hbm, ⟨54, _⟩ => ⟨S_, .f32⟩
  | .hbm, ⟨55, _⟩ => ⟨S100000x32, .f32⟩
  | .hbm, ⟨56, _⟩ => ⟨S3200000x1, .i32⟩
  | .hbm, ⟨57, _⟩ => ⟨S100000x32, .f32⟩
  | .hbm, ⟨58, _⟩ => ⟨S100000x32, .f32⟩
  | .hbm, ⟨59, _⟩ => ⟨S100000x32, .f32⟩
  | .hbm, ⟨60, _⟩ => ⟨S100000x88, .f32⟩
  | .hbm, ⟨61, _⟩ => ⟨S100000x1, .f32⟩
  | .hbm, ⟨62, _⟩ => ⟨S100000, .f32⟩
  | .local _ .vmem, ⟨0, _⟩ => ⟨S10000x24, .f32⟩
  | .local _ .vmem, ⟨1, _⟩ => ⟨S10000x24, .f32⟩
  | .local _ .vmem, ⟨2, _⟩ => ⟨S10000x24, .f32⟩
  | .local _ .vmem, ⟨3, _⟩ => ⟨S10000x24, .f32⟩
  | .local _ .vmem, ⟨4, _⟩ => ⟨S32x24, .f32⟩
  | .local _ .vmem, ⟨5, _⟩ => ⟨S32, .f32⟩
  | .local _ .vmem, ⟨6, _⟩ => ⟨S32x24, .f32⟩
  | .local _ .vmem, ⟨7, _⟩ => ⟨S10000x72, .f32⟩
  | .local _ .vmem, ⟨8, _⟩ => ⟨S10000x72, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x72, .f32⟩
  | .local _ .vmem, ⟨16, _⟩ => ⟨S10000x72, .f32⟩
  | .local _ .vmem, ⟨17, _⟩ => ⟨S16x32, .f32⟩
  | .local _ .vmem, ⟨18, _⟩ => ⟨S16, .f32⟩
  | .local _ .vmem, ⟨19, _⟩ => ⟨S16x32, .f32⟩
  | .local _ .vmem, ⟨20, _⟩ => ⟨S1x88, .f32⟩
  | .local _ .vmem, ⟨21, _⟩ => ⟨S1, .f32⟩
  | .local _ .vmem, ⟨22, _⟩ => ⟨S10000x88, .f32⟩
  | .local _ .vmem, ⟨23, _⟩ => ⟨S10000x88, .f32⟩
  | .local _ .vmem, ⟨24, _⟩ => ⟨S10000x1, .f32⟩
  | .local _ .vmem, ⟨25, _⟩ => ⟨S10000x1, .f32⟩
  | _, _ => ⟨S100000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24_0 : Ref sig .tc := ⟨.hbm, 43, rfl⟩
abbrev main_v24_1 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37_0 : Ref sig .tc := ⟨.hbm, 60, rfl⟩
abbrev main_v37_1 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x72 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x72 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x88 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x88 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S10000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x24 : S_.BroadcastsInDim S100000x24 (![] : Fin 0 → Fin S100000x24.rank)
  bcast_S100000x1_S100000x24_0_1 : S100000x1.BroadcastsInDim S100000x24 (![0, 1] : Fin 2 → Fin S100000x24.rank)
  inb_S10000x24_S10000x24_0_0 : ∀ a, (![0, 0] : Fin 2 → Nat) a + S10000x24.size a ≤ S10000x24.size a
  h_S10000x24 : 0 < S10000x24.numel
  shapeCasts_S10000x24_S10000x24 : S10000x24.ShapeCasts S10000x24
  concatenates_S10000x24_S10000x24_S10000x24_S10000x72_d1 : Shape.Concatenates [S10000x24, S10000x24, S10000x24] S10000x72 1
  inb_S10000x72_S10000x72_0_0 : ∀ a, (![0, 0] : Fin 2 → Nat) a + S10000x72.size a ≤ S10000x72.size a
  h_S10000x72 : 0 < S10000x72.numel
  inb_S32x24_S32x24_0_0 : ∀ a, (![0, 0] : Fin 2 → Nat) a + S32x24.size a ≤ S32x24.size a
  h_S32x24 : 0 < S32x24.numel
  inb_S32_S32_0 : ∀ a, (![0] : Fin 1 → Nat) a + S32.size a ≤ S32.size a
  h_S32 : 0 < S32.numel
  transposes_S32x24_p1_0_S24x32 : S32x24.Transposes [1, 0] S24x32
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S10000x32_S10000x32 : S10000x32.ShapeCasts S10000x32
  shapeCasts_S10000x72_S10000x72 : S10000x72.ShapeCasts S10000x72
  inb_S16x32_S16x32_0_0 : ∀ a, (![0, 0] : Fin 2 → Nat) a + S16x32.size a ≤ S16x32.size a
  h_S16x32 : 0 < S16x32.numel
  inb_S16_S16_0 : ∀ a, (![0] : Fin 1 → Nat) a + S16.size a ≤ S16.size a
  h_S16 : 0 < S16.numel
  transposes_S16x32_p1_0_S32x16 : S16x32.Transposes [1, 0] S32x16
  shapeCasts_S16_S1x16 : S16.ShapeCasts S1x16
  broadcasts_S1x16_S10000x16 : S1x16.Broadcasts S10000x16
  concatenates_S10000x72_S10000x16_S10000x88_d1 : Shape.Concatenates [S10000x72, S10000x16] S10000x88 1
  inb_S10000x88_S10000x88_0_0 : ∀ a, (![0, 0] : Fin 2 → Nat) a + S10000x88.size a ≤ S10000x88.size a
  h_S10000x88 : 0 < S10000x88.numel
  inb_S1x88_S1x88_0_0 : ∀ a, (![0, 0] : Fin 2 → Nat) a + S1x88.size a ≤ S1x88.size a
  h_S1x88 : 0 < S1x88.numel
  inb_S1_S1_0 : ∀ a, (![0] : Fin 1 → Nat) a + S1.size a ≤ S1.size a
  h_S1 : 0 < S1.numel
  transposes_S1x88_p1_0_S88x1 : S1x88.Transposes [1, 0] S88x1
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S3200000x1_S3200000_n_0_0_1_wf : ScatterDims.WF S100000 S3200000x1 S3200000 [] [0] [0] 1
  gather_S100000x24_S3200000x1_S3200000x24_1_0_n_n_0_1_124_wf : GatherDims.WF S100000x24 S3200000x1 S3200000x24 [1] [0] [] [0] [] 1 ![1, 24]
  scatter_S100000x24_S3200000x1_S3200000x24_1_0_0_1_wf : ScatterDims.WF S100000x24 S3200000x1 S3200000x24 [1] [0] [0] 1
  dot_S10000x24_S24x32_S10000x32_1_0_0_1_n_n_wf : DotDims.WF S10000x24 S24x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x16_S10000x16_1_0_0_1_n_n_wf : DotDims.WF S10000x32 S32x16 S10000x16 [1] [0] [0] [1] [] []
  dot_S10000x88_S88x1_S10000x1_1_0_0_1_n_n_wf : DotDims.WF S10000x88 S88x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x24.size a ≤ S100000x24.size a
  hwx0_0 : ∀ i : grid0.Coords, EltTy.bits .f32 = 32 ∨ (Rect.block (s := S100000x24) S10000x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x24.size a ≤ S100000x24.size a
  hwx0_1 : ∀ i : grid0.Coords, EltTy.bits .f32 = 32 ∨ (Rect.block (s := S100000x24) S10000x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x24.size a ≤ S32x24.size a
  hwx0_2 : ∀ i : grid0.Coords, EltTy.bits .f32 = 32 ∨ (Rect.block (s := S32x24) S32x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x24.size a ≤ S32x24.size a
  hwx0_4 : ∀ i : grid0.Coords, EltTy.bits .f32 = 32 ∨ (Rect.block (s := S32x24) S32x24.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x72.size a ≤ S100000x72.size a
  hwx0_5 : ∀ i : grid0.Coords, EltTy.bits .f32 = 32 ∨ (Rect.block (s := S100000x72) S10000x72.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x72.size a ≤ S100000x72.size a
  hwx1_2 : ∀ i : grid1.Coords, EltTy.bits .f32 = 32 ∨ (Rect.block (s := S100000x72) S10000x72.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x32.size a ≤ S16x32.size a
  hwx1_5 : ∀ i : grid1.Coords, EltTy.bits .f32 = 32 ∨ (Rect.block (s := S16x32) S16x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x88.size a ≤ S1x88.size a
  hwx1_6 : ∀ i : grid1.Coords, EltTy.bits .f32 = 32 ∨ (Rect.block (s := S1x88) S1x88.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x88.size a ≤ S100000x88.size a
  hwx1_8 : ∀ i : grid1.Coords, EltTy.bits .f32 = 32 ∨ (Rect.block (s := S100000x88) S10000x88.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x1.size a ≤ S100000x1.size a
  hwx1_9 : ∀ i : grid1.Coords, EltTy.bits .f32 = 32 ∨ (Rect.block (s := S100000x1) S10000x1.size (cc1_transform_9 i) (hinb1_9 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x24_S3200000x1_S3200000x24_1_0_n_n_0_1_124 : GatherDims S100000x24 S3200000x1 S3200000x24 where
  offsetDims := [1]
  collapsedSliceDims := [0]
  operandBatchingDims := []
  startIndicesBatchingDims := []
  startIndexMap := [0]
  indexVectorDim := 1
  sliceSizes := ![1, 24]
  wf := gather_S100000x24_S3200000x1_S3200000x24_1_0_n_n_0_1_124_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S10000x24_S24x32_S10000x32_1_0_0_1_n_n : DotDims S10000x24 S24x32 S10000x32 where
  lhsContracting := [1]
  rhsContracting := [0]
  lhsNonContracting := [0]
  rhsNonContracting := [1]
  lhsBatch := []
  rhsBatch := []
  wf := dot_S10000x24_S24x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x88_S88x1_S10000x1_1_0_0_1_n_n : DotDims S10000x88 S88x1 S10000x1 where
  lhsContracting := [1]
  rhsContracting := [0]
  lhsNonContracting := [0]
  rhsNonContracting := [1]
  lhsBatch := []
  rhsBatch := []
  wf := dot_S10000x88_S88x1_S10000x1_1_0_0_1_n_n_wf

abbrev win0_0 : Pipeline.Window sig grid0 :=
  Pipeline.Window.ofSpec (Memref.whole main_arg0) S10000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S10000x72.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24_1) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_0) S10000x72.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S16x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S1x88.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37_0) S10000x88.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v37_1) S10000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x24 : Shape := ⟨2, ![100000, 24]⟩
abbrev S2x3200000 : Shape := ⟨2, ![2, 3200000]⟩
abbrev S32x24 : Shape := ⟨2, ![32, 24]⟩
abbrev S32 : Shape := ⟨1, ![32]⟩
abbrev S16x32 : Shape := ⟨2, ![16, 32]⟩
abbrev S16 : Shape := ⟨1, ![16]⟩
abbrev S1x88 : Shape := ⟨2, ![1, 88]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x24 : Shape := ⟨2, ![3200000, 24]⟩
abbrev S100000 : Shape := ⟨1, ![100000]⟩
abbrev S100000x1 : Shape := ⟨2, ![100000, 1]⟩
abbrev S100000x72 : Shape := ⟨2, ![100000, 72]⟩
abbrev S24x32 : Shape := ⟨2, ![24, 32]⟩
abbrev S100000x32 : Shape := ⟨2, ![100000, 32]⟩
abbrev S1x32 : Shape := ⟨2, ![1, 32]⟩
abbrev S3200000x32 : Shape := ⟨2, ![3200000, 32]⟩
abbrev S32x16 : Shape := ⟨2, ![32, 16]⟩
abbrev S100000x16 : Shape := ⟨2, ![100000, 16]⟩
abbrev S1x16 : Shape := ⟨2, ![1, 16]⟩
abbrev S100000x88 : Shape := ⟨2, ![100000, 88]⟩
abbrev S88x1 : Shape := ⟨2, ![88, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x24, .f32⟩
  | .hbm, ⟨1, _⟩ => ⟨S2x3200000, .i32⟩
  | .hbm, ⟨2, _⟩ => ⟨S32x24, .f32⟩
  | .hbm, ⟨3, _⟩ => ⟨S32, .f32⟩
  | .hbm, ⟨4, _⟩ => ⟨S32x24, .f32⟩
  | .hbm, ⟨5, _⟩ => ⟨S16x32, .f32⟩
  | .hbm, ⟨6, _⟩ => ⟨S16, .f32⟩
  | .hbm, ⟨7, _⟩ => ⟨S16x32, .f32⟩
  | .hbm, ⟨8, _⟩ => ⟨S1x88, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x24, .f32⟩
  | .hbm, ⟨23, _⟩ => ⟨S_, .f32⟩
  | .hbm, ⟨24, _⟩ => ⟨S100000x24, .f32⟩
  | .hbm, ⟨25, _⟩ => ⟨S3200000x1, .i32⟩
  | .hbm, ⟨26, _⟩ => ⟨S100000x24, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x24, .f32⟩
  | .hbm, ⟨39, _⟩ => ⟨S100000x24, .f32⟩
  | .hbm, ⟨40, _⟩ => ⟨S100000x24, .f32⟩
  | .hbm, ⟨41, _⟩ => ⟨S100000x72, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x24, .f32⟩
  | .hbm, ⟨51, _⟩ => ⟨S_, .f32⟩
  | .hbm, ⟨52, _⟩ => ⟨S100000x24, .f32⟩
  | .hbm, ⟨53, _⟩ => ⟨S3200000x1, .i32⟩
  | .hbm, ⟨54, _⟩ => ⟨S100000x24, .f32⟩
  | .hbm, ⟨55, _⟩ => ⟨S_, .f32⟩
  | .hbm, ⟨56, _⟩ => ⟨S3200000, .f32⟩
  | .hbm, ⟨57, _⟩ => ⟨S_, .f32⟩
  | .hbm, ⟨58, _⟩ => ⟨S100000, .f32⟩
  | .hbm, ⟨59, _⟩ => ⟨S3200000x1, .i32⟩
  | .hbm, ⟨60, _⟩ => ⟨S100000, .f32⟩
  | .hbm, ⟨61, _⟩ => ⟨S_, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x24, .f32⟩
  | .hbm, ⟨67, _⟩ => ⟨S100000x24, .f32⟩
  | .hbm, ⟨68, _⟩ => ⟨S24x32, .f32⟩
  | .hbm, ⟨69, _⟩ => ⟨S100000x32, .f32⟩
  | .hbm, ⟨70, _⟩ => ⟨S1x32, .f32⟩
  | .hbm, ⟨71, _⟩ => ⟨S100000x32, .f32⟩
  | .hbm, ⟨72, _⟩ => ⟨S100000x32, .f32⟩
  | .hbm, ⟨73, _⟩ => ⟨S24x32, .f32⟩
  | .hbm, ⟨74, _⟩ => ⟨S100000x32, .f32⟩
  | .hbm, ⟨75, _⟩ => ⟨S100000x32, .f32⟩
  | .hbm, ⟨76, _⟩ => ⟨S_, .f32⟩
  | .hbm, ⟨77, _⟩ => ⟨S100000x32, .f32⟩
  | .hbm, ⟨78, _⟩ => ⟨S100000x32, .f32⟩
  | .hbm, ⟨79, _⟩ => ⟨S_, .i32⟩
  | .hbm, ⟨80, _⟩ => ⟨S3200000, .i32⟩
  | .hbm, ⟨81, _⟩ => ⟨S3200000, .i1⟩
  | .hbm, ⟨82, _⟩ => ⟨S_, .i32⟩
  | .hbm, ⟨83, _⟩ => ⟨S3200000, .i32⟩
  | .hbm, ⟨84, _⟩ => ⟨S3200000, .i32⟩
  | .hbm, ⟨85, _⟩ => ⟨S3200000, .i32⟩
  | .hbm, ⟨86, _⟩ => ⟨S3200000x1, .i32⟩
  | .hbm, ⟨87, _⟩ => ⟨S3200000x32, .f32⟩
  | .hbm, ⟨88, _⟩ => ⟨S_, .f32⟩
  | .hbm, ⟨89, _⟩ => ⟨S100000x32, .f32⟩
  | .hbm, ⟨90, _⟩ => ⟨S3200000x1, .i32⟩
  | .hbm, ⟨91, _⟩ => ⟨S100000x32, .f32⟩
  | .hbm, ⟨92, _⟩ => ⟨S_, .f32⟩
  | .hbm, ⟨93, _⟩ => ⟨S3200000, .f32⟩
  | .hbm, ⟨94, _⟩ => ⟨S_, .f32⟩
  | .hbm, ⟨95, _⟩ => ⟨S100000, .f32⟩
  | .hbm, ⟨96, _⟩ => ⟨S3200000x1, .i32⟩
  | .hbm, ⟨97, _⟩ => ⟨S100000, .f32⟩
  | .hbm, ⟨98, _⟩ => ⟨S_, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x32, .f32⟩
  | .hbm, ⟨104, _⟩ => ⟨S100000x32, .f32⟩
  | .hbm, ⟨105, _⟩ => ⟨S32x16, .f32⟩
  | .hbm, ⟨106, _⟩ => ⟨S100000x16, .f32⟩
  | .hbm, ⟨107, _⟩ => ⟨S1x16, .f32⟩
  | .hbm, ⟨108, _⟩ => ⟨S100000x16, .f32⟩
  | .hbm, ⟨109, _⟩ => ⟨S100000x16, .f32⟩
  | .hbm, ⟨110, _⟩ => ⟨S32x16, .f32⟩
  | .hbm, ⟨111, _⟩ => ⟨S100000x16, .f32⟩
  | .hbm, ⟨112, _⟩ => ⟨S100000x16, .f32⟩
  | .hbm, ⟨113, _⟩ => ⟨S_, .f32⟩
  | .hbm, ⟨114, _⟩ => ⟨S100000x16, .f32⟩
  | .hbm, ⟨115, _⟩ => ⟨S100000x16, .f32⟩
  | .hbm, ⟨116, _⟩ => ⟨S100000x88, .f32⟩
  | .hbm, ⟨117, _⟩ => ⟨S88x1, .f32⟩
  | .hbm, ⟨118, _⟩ => ⟨S100000x1, .f32⟩
  | .hbm, ⟨119, _⟩ => ⟨S1x1, .f32⟩
  | .hbm, ⟨120, _⟩ => ⟨S100000x1, .f32⟩
  | .hbm, ⟨121, _⟩ => ⟨S100000x1, .f32⟩
  | .hbm, ⟨122, _⟩ => ⟨S100000, .f32⟩
  | _, _ => ⟨S100000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_call1_v0 : Ref sig .tc := ⟨.hbm, 62, rfl⟩
abbrev main_call1_v1 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call2_cst : Ref sig .tc := ⟨.hbm, 76, rfl⟩
abbrev main_call2_v0 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_15 : Ref sig .tc := ⟨.hbm, 98, rfl⟩
abbrev main_call3_v0 : Ref sig .tc := ⟨.hbm, 99, rfl⟩
abbrev main_call3_v1 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call4_cst : Ref sig .tc := ⟨.hbm, 113, rfl⟩
abbrev main_call4_v0 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x24 : S_.BroadcastsInDim S100000x24 (![] : Fin 0 → Fin S100000x24.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x24_0_1 : S100000x1.BroadcastsInDim S100000x24 (![0, 1] : Fin 2 → Fin S100000x24.rank)
  concatenates_S100000x24_S100000x24_S100000x24_S100000x72_d1 : Shape.Concatenates [S100000x24, S100000x24, S100000x24] S100000x72 1
  transposes_S32x24_S24x32_1_0 : S32x24.Transposes [1, 0] S24x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  concatenates_S100000x72_S100000x16_S100000x88_d1 : Shape.Concatenates [S100000x72, S100000x16] S100000x88 1
  transposes_S1x88_S88x1_1_0 : S1x88.Transposes [1, 0] S88x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x24_S3200000x1_S3200000x24_1_0_n_n_0_1_124_wf : GatherDims.WF S100000x24 S3200000x1 S3200000x24 [1] [0] [] [0] [] 1 ![1, 24]
  scatter_S100000x24_S3200000x1_S3200000x24_1_0_0_1_wf : ScatterDims.WF S100000x24 S3200000x1 S3200000x24 [1] [0] [0] 1
  scatter_S100000_S3200000x1_S3200000_n_0_0_1_wf : ScatterDims.WF S100000 S3200000x1 S3200000 [] [0] [0] 1
  dot_S100000x24_S24x32_S100000x32_1_0_0_1_n_n_wf : DotDims.WF S100000x24 S24x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  dot_S100000x88_S88x1_S100000x1_1_0_0_1_n_n_wf : DotDims.WF S100000x88 S88x1 S100000x1 [1] [0] [0] [1] [] []

variable [Facts₀]

def gather_S100000x24_S3200000x1_S3200000x24_1_0_n_n_0_1_124 : GatherDims S100000x24 S3200000x1 S3200000x24 where
  offsetDims := [1]
  collapsedSliceDims := [0]
  operandBatchingDims := []
  startIndicesBatchingDims := []
  startIndexMap := [0]
  indexVectorDim := 1
  sliceSizes := ![1, 24]
  wf := gather_S100000x24_S3200000x1_S3200000x24_1_0_n_n_0_1_124_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x24_S24x32_S100000x32_1_0_0_1_n_n : DotDims S100000x24 S24x32 S100000x32 where
  lhsContracting := [1]
  rhsContracting := [0]
  lhsNonContracting := [0]
  rhsNonContracting := [1]
  lhsBatch := []
  rhsBatch := []
  wf := dot_S100000x24_S24x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x88_S88x1_S100000x1_1_0_0_1_n_n : DotDims S100000x88 S88x1 S100000x1 where
  lhsContracting := [1]
  rhsContracting := [0]
  lhsNonContracting := [0]
  rhsNonContracting := [1]
  lhsBatch := []
  rhsBatch := []
  wf := dot_S100000x88_S88x1_S100000x1_1_0_0_1_n_n_wf

class Facts : Prop extends Facts₀ where

variable [Facts]
-- ==== Proof.KernelRun.lean ====
/-
  The idealized kernel program's run, with every buffer named.

  The program is seven segments: three stretches of host operations, the first layer's grid, a stretch of host
  operations, the second layer's grid, and a closing reshape.  Every weakly fair execution ends, and in the final memory each
  buffer that is not scoped to a grid holds the last boundary's contents: the fold of the host stretches and of the two
  grids' write-backs over the launch memory.  The arguments and the two results are read off that one fact.
-/
import proofs.«119604_j58428735095026_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with every buffer that outlives the grids at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Whole

end
-- ==== Proof.LibHostKeepdims.lean ====
/-
  Reading the host's "keep the reduced axis as a unit axis" operations at an index.

  A host sum over the last axis of an `[a, b]` array kept as an `[a, 1]` column is met as: the sum to `[a]` from a
  zero scalar, a `broadcast_in_dim` of `[a]` to the column `[a, 1]`, and later a `broadcast_in_dim` of the column
  over `b` lanes; a scalar constant reaches a shape by `broadcast_in_dim` with no dimensions.  Each lemma reads one of
  them at an index built from coordinates.
-/
import Idealize.ShloMosaic.Lib.Pipeline.Value
import Idealize.ShloMosaic.Lib.ValueIdx
import Idealize.ShloMosaic.PureOps.Ideal.Laws

noncomputable section

namespace Idealize.ShloMosaic.HostKeepdims

open Idealize.ShloMosaic Idealize.ShloMosaic.ValueIdx

variable {α : Type}

/-- The host's sum over the last axis of an `[a, b]` array, started from the zero scalar, at row `r`, is the sum of
    the row's entries (the reduction's two shape facts are the caller's, decided at its literal shapes). -/
theorem hostRowSum_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd v (constant (F := Ideal) ⟨0, ![]⟩ .f32 0x00000000#32) h' hu (ix1 r) = ∑ k : Fin b, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (funext fun ax => Fin.ext (by
    match ax with
    | ⟨0, _⟩ => rfl
    | ⟨1, _⟩ => rfl))

/-- An `[a]` array laid as the column `[a, 1]` by `broadcast_in_dim` along axis 0 reads, at `(r, u)`, the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) :=
  broadcastInDim_apply _ h x (ix2 r u) (ix1 r) fun ax => by
    match ax with
    | ⟨0, _⟩ =>
      show r.val = if a = 1 then 0 else r.val
      split
      · have := r.isLt; omega
      · rfl

/-- A scalar sent to any shape by `broadcast_in_dim` with no dimensions reads, everywhere, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- A column `[a, 1]` sent over `b` lanes by `broadcast_in_dim` along axes 0 and 1 reads, at `(r, c)`, the column at row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 r (0 : Fin 1)) :=
  broadcastInDim_apply _ h x (ix2 r c) (ix2 r (0 : Fin 1)) fun ax => by
    match ax with
    | ⟨0, _⟩ =>
      show r.val = if a = 1 then 0 else r.val
      split
      · have := r.isLt; omega
      · rfl
    | ⟨1, _⟩ =>
      show (0 : ℕ) = if (1 : ℕ) = 1 then 0 else c.val
      rw [if_pos rfl]

end Idealize.ShloMosaic.HostKeepdims

end
-- ==== Proof.LibSelfLoopSum.lean ====
/-
  A degree-normalised neighbourhood sum with a self-loop, in its two arrangements.

  Node `n` has degree `deg n = (number of messages arriving at n) + 1` and weight `a = deg^(-1/2)`.  One
  arrangement scales every arriving message `v j` by the product of its source's weight `w j` and its
  destination's weight, sums, and adds the node's own value times `1 / deg`; the other scales messages by the
  source's weight only, adds the node's own value scaled by its weight, and multiplies the whole by the
  destination's weight afterwards.  On the extended reals the two agree for summands of any kind, infinite ones
  included, because the weight is a nonnegative real: such a factor distributes over sums, and
  `deg^(-1/2) · deg^(-1/2) = 1 / deg` for a real `deg > 0`.
-/
import Idealize.ShloMosaic.PureOps.Ideal
import Idealize.ShloMosaic.PureOps.Ideal.Laws

noncomputable section

namespace Idealize.ShloMosaic.SelfLoopSum

open Idealize.ShloMosaic

/-- The binary32 word `0x3F800000` denotes the real `1`. -/
theorem ofBits_one_f32 : Ideal.ofBits .f32 0x3F800000#32 = 1 := by
  simp [Ideal.ofBits, Ideal.ieee, -EReal.coe_mul]
  norm_num

/-- A sum of ones is the number of its terms. -/
theorem sum_ones {ι : Type*} (s : Finset ι) : ∑ _j ∈ s, (1 : EReal) = ((s.card : ℝ) : EReal) := by
  classical
  induction s using Finset.induction_on with
  | empty => simp
  | insert j s hj ih =>
    rw [Finset.sum_insert hj, ih, Finset.card_insert_of_notMem hj]
    push_cast
    rw [add_comm]

/-- Counting arrivals from zero and adding one gives a real degree, at least one. -/
theorem degree_eq {ι : Type*} (s : Finset ι) :
    (0 + ∑ _j ∈ s, (1 : EReal)) + 1 = (((s.card : ℝ) + 1 : ℝ) : EReal) := by
  rw [zero_add, sum_ones]; rfl

/-- At a positive real `r` the weight `r^(-1/2)` is a nonnegative real, and its square is `1 / r`. -/
theorem rsqrt_pos (r : ℝ) (hr : 0 < r) :
    0 ≤ Ideal.rsqrt (r : EReal) ∧ Ideal.rsqrt (r : EReal) ≠ ⊤
      ∧ Ideal.rsqrt (r : EReal) * Ideal.rsqrt (r : EReal) = Ideal.div 1 (r : EReal) := by
  have h2 : ¬ r < 0 := not_lt.mpr hr.le
  have h3 : r ≠ 0 := hr.ne'
  have e : Ideal.rsqrt (r : EReal) = (((Real.sqrt r)⁻¹ : ℝ) : EReal) := by
    rw [Ideal.rsqrt_coe, if_neg h2, if_neg h3]
  rw [e]
  refine ⟨?_, EReal.coe_ne_top _, ?_⟩
  · exact_mod_cast inv_nonneg.mpr (Real.sqrt_nonneg r)
  · rw [Ideal.div_coe h3, one_mul, ← EReal.coe_mul, ← mul_inv, Real.mul_self_sqrt hr.le, one_div]

/-- The two arrangements agree: `a` the destination's weight (nonnegative, finite), `v j` message `j`'s
    payload, `w j` its source's weight, `wd j` its destination's weight (which is `a` for every message
    of this destination), `x` the node's own value, `q = a · a` the self-loop's weight, `b` the bias. -/
theorem scaled_eq {ι : Type*} (s : Finset ι) (a : EReal) (h0 : 0 ≤ a) (ht : a ≠ ⊤) (v w wd : ι → EReal)
    (hwd : ∀ j ∈ s, wd j = a) (x q b : EReal) (hq : a * a = q) :
    a * ((0 + ∑ j ∈ s, v j * w j) + x * a) + b = ((0 + ∑ j ∈ s, v j * (w j * wd j)) + x * q) + b := by
  classical
  have hsum : a * ∑ j ∈ s, v j * w j = ∑ j ∈ s, v j * (w j * wd j) := by
    induction s using Finset.induction_on with
    | empty => simp
    | insert j s hj ih =>
      rw [Finset.sum_insert hj, Finset.sum_insert hj, EReal.left_distrib_of_nonneg_of_ne_top h0 ht,
        ih (fun k hk => hwd k (Finset.mem_insert_of_mem hk)), hwd j (Finset.mem_insert_self j s),
        mul_comm a (v j * w j), mul_assoc]
  rw [zero_add, zero_add, EReal.left_distrib_of_nonneg_of_ne_top h0 ht, hsum, mul_left_comm a x a, hq]

end Idealize.ShloMosaic.SelfLoopSum

end
-- ==== Proof.LibMeanByDegree.lean ====
/-
  Dividing a neighbourhood sum by the clipped in-degree, in two spellings.

  The in-degree of node `p` is the number of edges arriving at `p`: ones accumulated onto zeros, a natural number.
  Clipped below at one it is a real number `d ≥ 1`.  One program multiplies a row's sums by the reciprocal `1 / d`,
  the other divides them by `d`.  On the extended reals dividing by a nonzero real IS multiplying by its reciprocal,
  whatever the dividend (infinite dividends included), so the two agree with no assumption on the sums.
-/
import Idealize.ShloMosaic.Lib.ValueIdx
import Idealize.ShloMosaic.Lib.Pipeline.Value
import Idealize.ShloMosaic.PureOps.Ideal.Laws
import proofs.«119604_j58428735095026_1_alg».proof.Proof.LibHostKeepdims
import proofs.«119604_j58428735095026_1_alg».proof.Proof.LibSelfLoopSum

noncomputable section

namespace Cert.Mean

open Idealize.ShloMosaic Idealize.ShloMosaic.ValueIdx

/-- The maximum of one and a real number is a real number that is not zero. -/
theorem one_max_real (N : ℝ) : ∃ r : ℝ, r ≠ 0 ∧ max (1 : EReal) (N : EReal) = (r : EReal) :=
  ⟨max 1 N, (lt_of_lt_of_le one_pos (le_max_left 1 N)).ne', by
    rw [← EReal.coe_one]
    exact (EReal.coe_strictMono.monotone.map_max).symm⟩

/-- Ones accumulated onto zeros and clipped below at one: at every element a real number, at least one, so not zero. -/
theorem clipped_count_real {s si su : Shape} {w : ℕ} (d : ScatterDims s si su) (z one : FVec Ideal s .f32)
    (idx : IVec si w) (u : FVec Ideal su .f32) (hz : ∀ i, z i = 0) (hu : ∀ j, u j = 1) (h1 : ∀ i, one i = 1)
    (i : s.Idx) : ∃ r : ℝ, r ≠ 0 ∧ maximumf one (Host.scatterAdd d z idx u) i = (r : EReal) := by
  rw [maximumf_apply, h1]
  unfold Host.scatterAdd
  simp only [Ideal.hostScatterAdd_def]
  unfold Ideal.hostScatterAdd
  rw [hz, zero_add, Finset.sum_congr rfl (fun j _ => hu j), SelfLoopSum.sum_ones]
  exact one_max_real _

/-- A row's sums times the reciprocal of a nonzero real divisor are the sums divided by it: the reciprocal column and
    the divisor column each laid over the row's lanes. -/
theorem mul_recip_eq_div {n b : ℕ} (S : FVec Ideal ⟨2, ![n, b]⟩ .f32) (D one : FVec Ideal ⟨1, ![n]⟩ .f32)
    (hD : ∀ i, ∃ r : ℝ, r ≠ 0 ∧ D i = (r : EReal)) (h1 : ∀ i, one i = 1)
    (hc : (⟨1, ![n]⟩ : Shape).BroadcastsInDim ⟨2, ![n, 1]⟩ (![0] : Fin 1 → Fin 2))
    (hb : (⟨2, ![n, 1]⟩ : Shape).BroadcastsInDim ⟨2, ![n, b]⟩ (![0, 1] : Fin 2 → Fin 2)) :
    mulf S (broadcastInDim ⟨2, ![n, b]⟩ (![0, 1] : Fin 2 → Fin 2) hb
        (broadcastInDim ⟨2, ![n, 1]⟩ (![0] : Fin 1 → Fin 2) hc (Host.divf one D)))
      = Host.divf S (broadcastInDim ⟨2, ![n, b]⟩ (![0, 1] : Fin 2 → Fin 2) hb
        (broadcastInDim ⟨2, ![n, 1]⟩ (![0] : Fin 1 → Fin 2) hc D)) := by
  funext i
  obtain ⟨p, q, rfl⟩ : ∃ (p : Fin n) (q : Fin b), i = ix2 p q := ⟨i 0, i 1, eq_ix2 i⟩
  obtain ⟨r, hr, hDr⟩ := hD (ix1 p)
  show S (ix2 p q) * _ = Ideal.div (S (ix2 p q)) _
  rw [HostKeepdims.bcast_a1_ab_apply, HostKeepdims.bcast_a_a1_apply,
    HostKeepdims.bcast_a1_ab_apply, HostKeepdims.bcast_a_a1_apply]
  show S (ix2 p q) * Ideal.div (one (ix1 p)) (D (ix1 p)) = Ideal.div (S (ix2 p q)) (D (ix1 p))
  rw [hDr, h1, Ideal.div_coe hr, Ideal.div_coe hr, one_mul]

/-- The zero scalar sent to any shape reads `0` everywhere. -/
theorem zeros_apply {t : Shape} (h : (⟨0, ![]⟩ : Shape).BroadcastsInDim t (![] : Fin 0 → Fin t.rank)) (j : t.Idx) :
    broadcastInDim t (![] : Fin 0 → Fin t.rank) h (constant (F := Ideal) ⟨0, ![]⟩ .f32 0x00000000#32) j = 0 :=
  (HostKeepdims.bcast_scalar_apply _ h j).trans Ideal.ofBits_zero_f32

/-- The scalar one sent to any shape reads `1` everywhere. -/
theorem ones_apply {t : Shape} (h : (⟨0, ![]⟩ : Shape).BroadcastsInDim t (![] : Fin 0 → Fin t.rank)) (j : t.Idx) :
    broadcastInDim t (![] : Fin 0 → Fin t.rank) h (constant (F := Ideal) ⟨0, ![]⟩ .f32 0x3F800000#32) j = 1 :=
  (HostKeepdims.bcast_scalar_apply _ h j).trans SelfLoopSum.ofBits_one_f32

end Cert.Mean

end
-- ==== Proof.LibStagedRun.lean ====
/-
  Reading a long straight line of host operations piece by piece: the round trips of a module-local function.

  The buffer contents after a line of operations are a fold of the operations' results, so a line cut into consecutive
  pieces is read one piece at a time, each from ANY starting contents; a value several later operations read (a score
  array feeding a softmax) then stands for one buffer in the pieces after it instead of being repeated in every
  composed term.  An operation inside a module-local function carries its operands from their buffers' own types to the
  values' types and its result back, and a piece made of such operations composes into a term with one such round trip
  per intermediate value.  A value carried to a buffer's type and back is the value: rewriting with this fact removes
  every round trip at once, and what is left is the plain composition of the operations.
-/
import Idealize.ShloMosaic.Lib.StableHlo.Run

noncomputable section

namespace Idealize.ShloMosaic.StagedRun

open Idealize.ShloMosaic Idealize.ShloMosaic.StableHlo

variable {sig : RefSig} {Val : EltTy → Type}

/-- Contents carried to a buffer's own type and back are the contents. -/
theorem ofBuf_toBuf {T : BufTy} (x : TRef sig T) (v : T.Contents Val) : x.ofBuf (x.toBuf v) = v := by
  obtain ⟨r, h, hd, hs⟩ := x
  subst h
  rfl

end Idealize.ShloMosaic.StagedRun

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.LibLayerEntry.lean ====
/-
  One mean-aggregation layer and the final projection, read at an entry.

  A layer takes the aggregated neighbour means `M` and the node features `H` (both `[n, k]`), two weight matrices
  given transposed (`[k, b]`), an already-broadcast bias array and an already-broadcast zero array, and returns
  `max ((M·Wl + bias) + H·Wr, zero)`.  The kernel computes the two products on its matrix unit into zero accumulators,
  the host by contractions; on the extended reals both are the plain sums over the contracted coordinate, so the two
  spellings read the same at every entry.  The projection `Z·W + bias` likewise.  Nothing here needs finiteness: the
  two sides are the same expression, term for term.
-/
import Idealize.ShloMosaic.Lib.ValueIdx
import Idealize.ShloMosaic.Lib.Pipeline.Value
import Idealize.ShloMosaic.PureOps.Ideal.Laws
import proofs.«119604_j58428735095026_1_alg».proof.Proof.LibPlainDot
import proofs.«119604_j58428735095026_1_alg».proof.Proof.LibRowBroadcast

noncomputable section

namespace Cert.Layer

open Idealize.ShloMosaic Idealize.ShloMosaic.ValueIdx

variable {n k b : ℕ} {α : Type}

/-- A transposed `[b, k]` matrix read at `(j, c)` is the matrix at `(c, j)`. -/
theorem transpose_swap_apply (x : (⟨2, ![b, k]⟩ : Shape).Idx → α)
    (h : (⟨2, ![b, k]⟩ : Shape).Transposes [1, 0] ⟨2, ![k, b]⟩) (j : Fin k) (c : Fin b) :
    transpose ⟨2, ![k, b]⟩ [1, 0] x h (ix2 j c) = x (ix2 c j) :=
  transpose_apply [1, 0] x h (ix2 j c) (ix2 c j) (fun ax => match ax with
    | ⟨0, _⟩ => rfl
    | ⟨1, _⟩ => rfl)

/-- A flat `[b]` bias laid as a row and broadcast down `n` rows on the vector unit reads, at `(p, c)`, entry `c`. -/
theorem bias_rows_apply (x : (⟨1, ![b]⟩ : Shape).Idx → α) (hC : (⟨1, ![b]⟩ : Shape).ShapeCasts ⟨2, ![1, b]⟩)
    (hB : (⟨2, ![1, b]⟩ : Shape).Broadcasts ⟨2, ![n, b]⟩) (p : Fin n) (c : Fin b) :
    broadcastTo ⟨2, ![n, b]⟩ (shapeCast ⟨2, ![1, b]⟩ x hC) hB (ix2 p c) = x (ix1 c) := by
  rw [RowBroadcast.broadcastTo_row_apply, RowBroadcast.shapeCast_flat_apply]

/-- The same on the host: the flat bias sent to a row (its axis to axis 1), the row sent down the rows. -/
theorem host_bias_rows_apply (x : (⟨1, ![b]⟩ : Shape).Idx → α)
    (hF : (⟨1, ![b]⟩ : Shape).BroadcastsInDim ⟨2, ![1, b]⟩ (![1] : Fin 1 → Fin 2))
    (hR : (⟨2, ![1, b]⟩ : Shape).BroadcastsInDim ⟨2, ![n, b]⟩ (![0, 1] : Fin 2 → Fin 2)) (p : Fin n) (c : Fin b) :
    broadcastInDim ⟨2, ![n, b]⟩ (![0, 1] : Fin 2 → Fin 2) hR
      (broadcastInDim ⟨2, ![1, b]⟩ (![1] : Fin 1 → Fin 2) hF x) (ix2 p c) = x (ix1 c) := by
  rw [RowBroadcast.broadcastInDim_row_apply _ rfl rfl, RowBroadcast.broadcastInDim_flat_apply _ rfl]

section
variable (D : DotDims ⟨2, ![n, k]⟩ ⟨2, ![k, b]⟩ ⟨2, ![n, b]⟩)
  (hr : D.contr.rank = 1) (hs : D.contr.size ⟨0, by omega⟩ = k)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
include hr hs hl0 hl1 hr0 hr1

/-- The kernel's layer arithmetic on a block of rows, at entry `(p, c)`. -/
theorem kernel_layer_apply (prec : Option ContractPrecision) (xm xh : FVec Ideal ⟨2, ![n, k]⟩ .f32)
    (wl wr : FVec Ideal ⟨2, ![k, b]⟩ .f32) (bb z : FVec Ideal ⟨2, ![n, b]⟩ .f32) (p : Fin n) (c : Fin b) :
    maximumf (addf (addf
        (matmul D prec xm wl (constant (F := Ideal) ⟨2, ![n, b]⟩ .f32 0x00000000#32)) bb)
        (matmul D prec xh wr (constant (F := Ideal) ⟨2, ![n, b]⟩ .f32 0x00000000#32))) z (ix2 p c)
    = max ((∑ j : Fin k, xm (ix2 p j) * wl (ix2 j c) + bb (ix2 p c)) + ∑ j : Fin k, xh (ix2 p j) * wr (ix2 j c))
        (z (ix2 p c)) := by
  rw [maximumf_apply, addf_apply, addf_apply,
    PlainDot.matmul_zero_apply D prec hr hs hl0 hl1 hr0 hr1, PlainDot.matmul_zero_apply D prec hr hs hl0 hl1 hr0 hr1]

/-- The host's layer arithmetic on the whole array, at entry `(p, c)`. -/
theorem host_layer_apply (prec : Option ContractPrecision) (M H : FVec Ideal ⟨2, ![n, k]⟩ .f32)
    (wl wr : FVec Ideal ⟨2, ![k, b]⟩ .f32) (bb z : FVec Ideal ⟨2, ![n, b]⟩ .f32) (p : Fin n) (c : Fin b) :
    maximumf (addf (addf (Host.dotGeneral D prec M wl) bb) (Host.dotGeneral D prec H wr)) z (ix2 p c)
    = max ((∑ j : Fin k, M (ix2 p j) * wl (ix2 j c) + bb (ix2 p c)) + ∑ j : Fin k, H (ix2 p j) * wr (ix2 j c))
        (z (ix2 p c)) := by
  rw [maximumf_apply, addf_apply, addf_apply,
    PlainDot.dotGeneral_apply D prec hr hs hl0 hl1 hr0 hr1, PlainDot.dotGeneral_apply D prec hr hs hl0 hl1 hr0 hr1]

/-- The kernel's projection arithmetic on a block of rows, at entry `(p, c)`. -/
theorem kernel_proj_apply (prec : Option ContractPrecision) (x : FVec Ideal ⟨2, ![n, k]⟩ .f32)
    (w : FVec Ideal ⟨2, ![k, b]⟩ .f32) (bb : FVec Ideal ⟨2, ![n, b]⟩ .f32) (p : Fin n) (c : Fin b) :
    addf (matmul D prec x w (constant (F := Ideal) ⟨2, ![n, b]⟩ .f32 0x00000000#32)) bb (ix2 p c)
    = ∑ j : Fin k, x (ix2 p j) * w (ix2 j c) + bb (ix2 p c) := by
  rw [addf_apply, PlainDot.matmul_zero_apply D prec hr hs hl0 hl1 hr0 hr1]

/-- The host's projection arithmetic on the whole array, at entry `(p, c)`. -/
theorem host_proj_apply (prec : Option ContractPrecision) (X : FVec Ideal ⟨2, ![n, k]⟩ .f32)
    (w : FVec Ideal ⟨2, ![k, b]⟩ .f32) (bb : FVec Ideal ⟨2, ![n, b]⟩ .f32) (p : Fin n) (c : Fin b) :
    addf (Host.dotGeneral D prec X w) bb (ix2 p c)
    = ∑ j : Fin k, X (ix2 p j) * w (ix2 j c) + bb (ix2 p c) := by
  rw [addf_apply, PlainDot.dotGeneral_apply D prec hr hs hl0 hl1 hr0 hr1]

end

end Cert.Layer

end
-- ==== Proof.LibJoinLanes.lean ====
/-
  Arrays joined along their lanes, read at an entry.

  Three `[n, a]`, `[n, b]`, `[n, c]` arrays joined along axis 1 give an `[n, w]` array whose entry `(p, q)` is the
  first piece's `(p, q)` for `q < a`, the second's `(p, q - a)` for `a ≤ q < a + b`, the third's `(p, q - a - b)`
  beyond; two arrays likewise.  The kernel joins blocks of rows and the host whole arrays with the same operation, so
  these readings serve both.
-/
import Idealize.ShloMosaic.Lib.ValueIdx
import Idealize.ShloMosaic.Lib.Pipeline.Value

noncomputable section

namespace Cert.Join

open Idealize.ShloMosaic Idealize.ShloMosaic.ValueIdx

variable {n a b c w : ℕ} {α : Type}

/-- Three pieces, an entry in the first. -/
theorem join3_first (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, w]⟩ 1)
    (p : Fin n) (q : Fin w) (hq : q.val < a) :
    concatenate ⟨2, ![n, w]⟩ 1 [⟨⟨2, ![n, a]⟩, x⟩, ⟨⟨2, ![n, b]⟩, y⟩, ⟨⟨2, ![n, c]⟩, z⟩] h (ix2 p q)
      = x (ix2 p ⟨q.val, hq⟩) :=
  concatenate_apply_piece (t := ⟨2, ![n, w]⟩) (1 : Fin 2) [⟨⟨2, ![n, a]⟩, x⟩, ⟨⟨2, ![n, b]⟩, y⟩, ⟨⟨2, ![n, c]⟩, z⟩] h (ix2 p q) 0 (by show (0 : ℕ) < 3; omega) ⟨2, ![n, a]⟩ x rfl rfl 0 rfl (ix2 p ⟨q.val, hq⟩)
    (fun ax hax => match ax with
      | ⟨0, _⟩ => rfl
      | ⟨1, _⟩ => absurd rfl hax)
    (Nat.zero_add _)

/-- Three pieces, an entry in the second. -/
theorem join3_second (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, w]⟩ 1)
    (p : Fin n) (q : Fin w) (q' : Fin b) (hq : a + q'.val = q.val) :
    concatenate ⟨2, ![n, w]⟩ 1 [⟨⟨2, ![n, a]⟩, x⟩, ⟨⟨2, ![n, b]⟩, y⟩, ⟨⟨2, ![n, c]⟩, z⟩] h (ix2 p q)
      = y (ix2 p q') :=
  concatenate_apply_piece (t := ⟨2, ![n, w]⟩) (1 : Fin 2) [⟨⟨2, ![n, a]⟩, x⟩, ⟨⟨2, ![n, b]⟩, y⟩, ⟨⟨2, ![n, c]⟩, z⟩] h (ix2 p q) 1 (by show (1 : ℕ) < 3; omega) ⟨2, ![n, b]⟩ y rfl rfl a rfl (ix2 p q')
    (fun ax hax => match ax with
      | ⟨0, _⟩ => rfl
      | ⟨1, _⟩ => absurd rfl hax)
    hq

/-- Three pieces, an entry in the third. -/
theorem join3_third (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, w]⟩ 1)
    (p : Fin n) (q : Fin w) (q' : Fin c) (hq : a + b + q'.val = q.val) :
    concatenate ⟨2, ![n, w]⟩ 1 [⟨⟨2, ![n, a]⟩, x⟩, ⟨⟨2, ![n, b]⟩, y⟩, ⟨⟨2, ![n, c]⟩, z⟩] h (ix2 p q)
      = z (ix2 p q') :=
  concatenate_apply_piece (t := ⟨2, ![n, w]⟩) (1 : Fin 2) [⟨⟨2, ![n, a]⟩, x⟩, ⟨⟨2, ![n, b]⟩, y⟩, ⟨⟨2, ![n, c]⟩, z⟩] h (ix2 p q) 2 (by show (2 : ℕ) < 3; omega) ⟨2, ![n, c]⟩ z rfl rfl (a + b)
    (by show a + (b + 0) = a + b; rw [Nat.add_zero]) (ix2 p q')
    (fun ax hax => match ax with
      | ⟨0, _⟩ => rfl
      | ⟨1, _⟩ => absurd rfl hax)
    hq

/-- Two pieces, an entry in the first. -/
theorem join2_first (x : (⟨2, ![n, a]⟩ : Shape).Idx → α) (y : (⟨2, ![n, b]⟩ : Shape).Idx → α)
    (h : Shape.Concatenates [(⟨2, ![n, a]⟩ : Shape), ⟨2, ![n, b]⟩] ⟨2, ![n, w]⟩ 1)
    (p : Fin n) (q : Fin w) (hq : q.val < a) :
    concatenate ⟨2, ![n, w]⟩ 1 [⟨⟨2, ![n, a]⟩, x⟩, ⟨⟨2, ![n, b]⟩, y⟩] h (ix2 p q) = x (ix2 p ⟨q.val, hq⟩) :=
  concatenate_apply_piece (t := ⟨2, ![n, w]⟩) (1 : Fin 2) [⟨⟨2, ![n, a]⟩, x⟩, ⟨⟨2, ![n, b]⟩, y⟩] h (ix2 p q) 0 (by show (0 : ℕ) < 2; omega) ⟨2, ![n, a]⟩ x rfl rfl 0 rfl (ix2 p ⟨q.val, hq⟩)
    (fun ax hax => match ax with
      | ⟨0, _⟩ => rfl
      | ⟨1, _⟩ => absurd rfl hax)
    (Nat.zero_add _)

/-- Two pieces, an entry in the second. -/
theorem join2_second (x : (⟨2, ![n, a]⟩ : Shape).Idx → α) (y : (⟨2, ![n, b]⟩ : Shape).Idx → α)
    (h : Shape.Concatenates [(⟨2, ![n, a]⟩ : Shape), ⟨2, ![n, b]⟩] ⟨2, ![n, w]⟩ 1)
    (p : Fin n) (q : Fin w) (q' : Fin b) (hq : a + q'.val = q.val) :
    concatenate ⟨2, ![n, w]⟩ 1 [⟨⟨2, ![n, a]⟩, x⟩, ⟨⟨2, ![n, b]⟩, y⟩] h (ix2 p q) = y (ix2 p q') :=
  concatenate_apply_piece (t := ⟨2, ![n, w]⟩) (1 : Fin 2) [⟨⟨2, ![n, a]⟩, x⟩, ⟨⟨2, ![n, b]⟩, y⟩] h (ix2 p q) 1 (by show (1 : ℕ) < 2; omega) ⟨2, ![n, b]⟩ y rfl rfl a rfl (ix2 p q')
    (fun ax hax => match ax with
      | ⟨0, _⟩ => rfl
      | ⟨1, _⟩ => absurd rfl hax)
    hq

end Cert.Join

end
-- ==== Proof.First.lean ====
/-
  The first layer's grid: what its two output arrays hold afterwards.

  The grid has ten points; point `t` works on rows `10000·t … 10000·t + 9999` of the node arrays and on the whole of
  the small weight arrays.  Its features block is the three-way join `[x | ax | x·ax]` of the point's rows, and its hidden
  block is `max ((ax·Wlᵀ + bias) + x·Wrᵀ, 0)` of them.  Every row of the 100000 belongs to exactly one point, so the
  arrays after the grid are those functions of the arrays the grid found, entry by entry: any array `G` with those
  entries IS the array the grid leaves.
-/
import proofs.«119604_j58428735095026_1_alg».proof.Proof.Gen.KernelIdeal.Frame
import proofs.«119604_j58428735095026_1_alg».proof.Proof.LibLayerEntry
import proofs.«119604_j58428735095026_1_alg».proof.Proof.LibJoinLanes
import Idealize.ShloMosaic.Lib.Pipeline.Value
import Idealize.ShloMosaic.Lib.ValueIdx

set_option maxRecDepth 16384

noncomputable section

namespace Cert.KernelIdeal.First

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node arrays' blocks move with the point along the rows, the weight
    arrays' one block stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 10 := t.isLt

/-! ## The input blocks as rows of the arrays -/

theorem x_blk (c : Dev nD) (t : Fin cfg0.N) (p : Fin 10000) (j : Fin 24) (hP : t.val * 10000 + p.val < 100000) :
    (iblk0 V c 0 t : Vec Ideal S10000x24 .f32) (ix2 p j)
      = (V c main_arg0 : S100000x24.Idx → EReal) (ix2 (⟨t.val * 10000 + p.val, hP⟩ : Fin 100000) j) := by
  obtain ⟨e00, e01, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = t.val * 10000 + p.val; rw [e00]; omega
  | ⟨1, _⟩ => show win0_0.index t (1 : Fin 2) * 24 + 1 * j.val = j.val; rw [e01]; omega

theorem ax_blk (c : Dev nD) (t : Fin cfg0.N) (p : Fin 10000) (j : Fin 24) (hP : t.val * 10000 + p.val < 100000) :
    (iblk0 V c 1 t : Vec Ideal S10000x24 .f32) (ix2 p j)
      = (V c main_v23 : S100000x24.Idx → EReal) (ix2 (⟨t.val * 10000 + p.val, hP⟩ : Fin 100000) j) := by
  obtain ⟨-, -, e10, e11, -⟩ := idx_facts t
  unfold iblk0
  rw [View.read_apply]
  show V c main_v23 _ = V c main_v23 _
  congr 1
  funext a
  apply Fin.ext
  match a with
  | ⟨0, _⟩ => show win0_1.index t (0 : Fin 2) * 10000 + 1 * p.val = t.val * 10000 + p.val; rw [e10]; omega
  | ⟨1, _⟩ => show win0_1.index t (1 : Fin 2) * 24 + 1 * j.val = j.val; rw [e11]; omega

theorem wl_blk (c : Dev nD) (t : Fin cfg0.N) (q : Fin 32) (j : Fin 24) :
    (iblk0 V c 2 t : Vec Ideal S32x24 .f32) (ix2 q j) = (V c main_arg2 : S32x24.Idx → EReal) (ix2 q j) := by
  obtain ⟨-, -, -, -, e20, e21, -⟩ := idx_facts t
  unfold iblk0
  rw [View.read_apply]
  show V c main_arg2 _ = V c main_arg2 _
  congr 1
  funext a
  apply Fin.ext
  match a with
  | ⟨0, _⟩ => show win0_2.index t (0 : Fin 2) * 32 + 1 * q.val = q.val; rw [e20]; omega
  | ⟨1, _⟩ => show win0_2.index t (1 : Fin 2) * 24 + 1 * j.val = j.val; rw [e21]; omega

theorem bias_blk (c : Dev nD) (t : Fin cfg0.N) (q : Fin 32) :
    (iblk0 V c 3 t : Vec Ideal S32 .f32) (ix1 q) = (V c main_arg3 : S32.Idx → EReal) (ix1 q) := by
  obtain ⟨-, -, -, -, -, -, e30, -⟩ := idx_facts t
  unfold iblk0
  rw [View.read_apply]
  show V c main_arg3 _ = V c main_arg3 _
  congr 1
  funext a
  apply Fin.ext
  match a with
  | ⟨0, _⟩ => show win0_3.index t (0 : Fin 1) * 32 + 1 * q.val = q.val; rw [e30]; omega

theorem wr_blk (c : Dev nD) (t : Fin cfg0.N) (q : Fin 32) (j : Fin 24) :
    (iblk0 V c 4 t : Vec Ideal S32x24 .f32) (ix2 q j) = (V c main_arg4 : S32x24.Idx → EReal) (ix2 q j) := by
  obtain ⟨-, -, -, -, -, -, -, e40, e41, -⟩ := idx_facts t
  unfold iblk0
  rw [View.read_apply]
  show V c main_arg4 _ = V c main_arg4 _
  congr 1
  funext a
  apply Fin.ext
  match a with
  | ⟨0, _⟩ => show win0_4.index t (0 : Fin 2) * 32 + 1 * q.val = q.val; rw [e40]; omega
  | ⟨1, _⟩ => show win0_4.index t (1 : Fin 2) * 24 + 1 * j.val = j.val; rw [e41]; omega

/-! ## The matrix unit's dimension record, read off its lists -/

theorem d_rank : dot_S10000x24_S24x32_S10000x32_1_0_0_1_n_n.contr.rank = 1 := rfl
theorem d_l0 (i : S10000x32.Idx) (q : dot_S10000x24_S24x32_S10000x32_1_0_0_1_n_n.contr.Idx) :
    (dot_S10000x24_S24x32_S10000x32_1_0_0_1_n_n.lhsIdx i q 0).val = (i 0).val := by
  unfold DotDims.lhsIdx
  rw [dif_neg (show ¬(0 : Fin S10000x24.rank) ∈ dot_S10000x24_S24x32_S10000x32_1_0_0_1_n_n.lhsBatch by decide),
    dif_pos (show (0 : Fin S10000x24.rank) ∈ dot_S10000x24_S24x32_S10000x32_1_0_0_1_n_n.lhsNonContracting by decide)]
  rfl
theorem d_l1 (i : S10000x32.Idx) (q : dot_S10000x24_S24x32_S10000x32_1_0_0_1_n_n.contr.Idx) :
    (dot_S10000x24_S24x32_S10000x32_1_0_0_1_n_n.lhsIdx i q 1).val = (q ⟨0, by decide⟩).val :=
  dot_S10000x24_S24x32_S10000x32_1_0_0_1_n_n.lhsIdx_val_of_single rfl i q
theorem d_r0 (i : S10000x32.Idx) (q : dot_S10000x24_S24x32_S10000x32_1_0_0_1_n_n.contr.Idx) :
    (dot_S10000x24_S24x32_S10000x32_1_0_0_1_n_n.rhsIdx i q 0).val = (q ⟨0, by decide⟩).val :=
  dot_S10000x24_S24x32_S10000x32_1_0_0_1_n_n.rhsIdx_val_of_single rfl i q
theorem d_r1 (i : S10000x32.Idx) (q : dot_S10000x24_S24x32_S10000x32_1_0_0_1_n_n.contr.Idx) :
    (dot_S10000x24_S24x32_S10000x32_1_0_0_1_n_n.rhsIdx i q 1).val = (i 1).val := by
  unfold DotDims.rhsIdx
  rw [dif_neg (show ¬(1 : Fin S24x32.rank) ∈ dot_S10000x24_S24x32_S10000x32_1_0_0_1_n_n.rhsBatch by decide),
    dif_pos (show (1 : Fin S24x32.rank) ∈ dot_S10000x24_S24x32_S10000x32_1_0_0_1_n_n.rhsNonContracting by decide)]
  rfl

/-! ## The body's two payloads at an entry of the block -/

/-- The aggregated block passes through a cast to its own shape. -/
theorem pay1_eq (x1 : Vec Ideal S10000x24 .f32) : k0_pay1 (F := Ideal) x1 = x1 := by
  unfold k0_pay1
  exact shapeCast_self _ _

/-- The features block at `(p, q)`: the join of the rows' features, aggregated means and their products, against
    any array `G` with those entries at row `10000·T + p`. -/
theorem feats_point (x0 x1 : Vec Ideal S10000x24 .f32) (X0 AX : S100000x24.Idx → EReal) (G : S100000x72.Idx → EReal)
    (hG1 : ∀ (P : Fin 100000) (q : Fin 72) (hq : q.val < 24), G (ix2 P q) = X0 (ix2 P ⟨q.val, hq⟩))
    (hG2 : ∀ (P : Fin 100000) (q : Fin 72) (q' : Fin 24), 24 + q'.val = q.val → G (ix2 P q) = AX (ix2 P q'))
    (hG3 : ∀ (P : Fin 100000) (q : Fin 72) (q' : Fin 24), 24 + 24 + q'.val = q.val →
      G (ix2 P q) = X0 (ix2 P q') * AX (ix2 P q'))
    (T : ℕ)
    (hx0 : ∀ (p : Fin 10000) (j : Fin 24) (hP : T * 10000 + p.val < 100000),
      x0 (ix2 p j) = X0 (ix2 (⟨T * 10000 + p.val, hP⟩ : Fin 100000) j))
    (hx1 : ∀ (p : Fin 10000) (j : Fin 24) (hP : T * 10000 + p.val < 100000),
      x1 (ix2 p j) = AX (ix2 (⟨T * 10000 + p.val, hP⟩ : Fin 100000) j))
    (p : Fin 10000) (q : Fin 72) (hP : T * 10000 + p.val < 100000) :
    k0_pay2 (F := Ideal) x0 x1 (ix2 p q) = G (ix2 (⟨T * 10000 + p.val, hP⟩ : Fin 100000) q) := by
  unfold k0_pay2
  have hq := q.isLt
  by_cases h1 : q.val < 24
  · refine (Join.join3_first _ _ _ _ p q h1).trans ?_
    rw [hx0 p ⟨q.val, h1⟩ hP, hG1 _ q h1]
  · by_cases h2 : q.val < 48
    · refine (Join.join3_second _ _ _ _ p q (⟨q.val - 24, by omega⟩ : Fin 24) (by show 24 + (q.val - 24) = q.val; omega)).trans ?_
      rw [pay1_eq, hx1 p _ hP, hG2 _ q (⟨q.val - 24, by omega⟩ : Fin 24) (by show 24 + (q.val - 24) = q.val; omega)]
    · refine (Join.join3_third _ _ _ _ p q (⟨q.val - 48, by omega⟩ : Fin 24) (by show 24 + 24 + (q.val - 48) = q.val; omega)).trans ?_
      rw [pay1_eq, mulf_apply, hx0 p _ hP, hx1 p _ hP,
        hG3 _ q (⟨q.val - 48, by omega⟩ : Fin 24) (by show 24 + 24 + (q.val - 48) = q.val; omega)]

/-- The hidden block at `(p, c)`: the two contractions over the 24 features, the bias, the maximum with zero. -/
theorem hidden_point (x0 x1 : Vec Ideal S10000x24 .f32) (x2 : Vec Ideal S32x24 .f32) (x3 : Vec Ideal S32 .f32)
    (x4 : Vec Ideal S32x24 .f32) (p : Fin 10000) (c' : Fin 32) :
    k0_pay3 (F := Ideal) x0 x1 x2 x3 x4 (ix2 p c')
      = max ((∑ j : Fin 24, x1 (ix2 p j) * x2 (ix2 c' j) + x3 (ix1 c')) + ∑ j : Fin 24, x0 (ix2 p j) * x4 (ix2 c' j))
          (Ideal.ofBits .f32 0x00000000#32) := by
  show maximumf (addf (addf (matmul _ _ _ _ _) _) (matmul _ _ _ _ _)) _ (ix2 p c') = _
  refine (Layer.kernel_layer_apply dot_S10000x24_S24x32_S10000x32_1_0_0_1_n_n d_rank rfl d_l0 d_l1 d_r0 d_r1
    _ _ _ _ _ _ _ p c').trans ?_
  have e2 : ∀ j : Fin 24, transpose S24x32 [1, 0] x2 transposes_S32x24_p1_0_S24x32 (ix2 j c') = x2 (ix2 c' j) :=
    fun j => Layer.transpose_swap_apply (α := EReal) x2 _ j c'
  have e4 : ∀ j : Fin 24, transpose S24x32 [1, 0] x4 transposes_S32x24_p1_0_S24x32 (ix2 j c') = x4 (ix2 c' j) :=
    fun j => Layer.transpose_swap_apply (α := EReal) x4 _ j c'
  rw [pay1_eq, Layer.bias_rows_apply, broadcast_apply]
  simp only [e2, e4]
  rfl

/-! ## What a point writes back, the cover, the arrays after the grid -/

theorem mem_blk5 (t : Fin cfg0.N) (i : S100000x72.Idx) :
    i ∈ ((cfg0.win 5).blk t).view.set ↔ ∀ a : Fin 2, win0_5.index t a * S10000x72.size a ≤ (i a).val
      ∧ (i a).val < win0_5.index t a * S10000x72.size a + S10000x72.size a := by
  show i ∈ ((View.whole main_v24_0).slice (win0_5.rect t)).set ↔ _
  rw [View.set_slice_whole, Rect.mem_set_unit]
  exact Iff.rfl

theorem mem_blk6 (t : Fin cfg0.N) (i : S100000x32.Idx) :
    i ∈ ((cfg0.win 6).blk t).view.set ↔ ∀ a : Fin 2, win0_6.index t a * S10000x32.size a ≤ (i a).val
      ∧ (i a).val < win0_6.index t a * S10000x32.size a + S10000x32.size a := by
  show i ∈ ((View.whole main_v24_1).slice (win0_6.rect t)).set ↔ _
  rw [View.set_slice_whole, Rect.mem_set_unit]
  exact Iff.rfl

/-- Every row belongs to the point that is its number divided by 10000. -/
theorem cover5 (i : S100000x72.Idx) :
    ∃ t : Fin cfg0.N, (cfg0.win 5).flush t = true ∧ i ∈ ((cfg0.win 5).blk t).view.set := by
  have hi0 : (i 0).val < 100000 := (i 0).isLt
  have hi1 : (i 1).val < 72 := (i 1).isLt
  have hN := N_0
  refine ⟨⟨(i 0).val / 10000, by show (i 0).val / 10000 < grid0.N; omega⟩, flush0_5 _, ?_⟩
  rw [mem_blk5]
  obtain ⟨-, -, -, -, -, -, -, -, -, e50, e51, -⟩ := idx_facts ⟨(i 0).val / 10000, by show (i 0).val / 10000 < grid0.N; omega⟩
  intro a
  match a with
  | ⟨0, _⟩ =>
    show win0_5.index _ (0 : Fin 2) * 10000 ≤ (i 0).val ∧ (i 0).val < win0_5.index _ (0 : Fin 2) * 10000 + 10000
    rw [e50]; show (i 0).val / 10000 * 10000 ≤ (i 0).val ∧ (i 0).val < (i 0).val / 10000 * 10000 + 10000; omega
  | ⟨1, _⟩ =>
    show win0_5.index _ (1 : Fin 2) * 72 ≤ (i 1).val ∧ (i 1).val < win0_5.index _ (1 : Fin 2) * 72 + 72
    rw [e51]; omega

theorem cover6 (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  have hN := N_0
  refine ⟨⟨(i 0).val / 10000, by show (i 0).val / 10000 < grid0.N; omega⟩, flush0_6 _, ?_⟩
  rw [mem_blk6]
  obtain ⟨-, -, -, -, -, -, -, -, -, -, -, e60, e61⟩ := idx_facts ⟨(i 0).val / 10000, by show (i 0).val / 10000 < grid0.N; omega⟩
  intro a
  match a with
  | ⟨0, _⟩ =>
    show win0_6.index _ (0 : Fin 2) * 10000 ≤ (i 0).val ∧ (i 0).val < win0_6.index _ (0 : Fin 2) * 10000 + 10000
    rw [e60]; show (i 0).val / 10000 * 10000 ≤ (i 0).val ∧ (i 0).val < (i 0).val / 10000 * 10000 + 10000; omega
  | ⟨1, _⟩ =>
    show win0_6.index _ (1 : Fin 2) * 32 ≤ (i 1).val ∧ (i 1).val < win0_6.index _ (1 : Fin 2) * 32 + 32
    rw [e61]; omega

/-- THE FEATURES ARRAY after the grid is any array with the join's entries (`X0` the features the grid found, `AX`
    their aggregated means). -/
theorem feats_final (c : Dev nD) (X0 AX : S100000x24.Idx → EReal) (h0 : V c main_arg0 = X0) (h1 : V c main_v23 = AX)
    (G : S100000x72.Idx → EReal)
    (hG1 : ∀ (P : Fin 100000) (q : Fin 72) (hq : q.val < 24), G (ix2 P q) = X0 (ix2 P ⟨q.val, hq⟩))
    (hG2 : ∀ (P : Fin 100000) (q : Fin 72) (q' : Fin 24), 24 + q'.val = q.val → G (ix2 P q) = AX (ix2 P q'))
    (hG3 : ∀ (P : Fin 100000) (q : Fin 72) (q' : Fin 24), 24 + 24 + q'.val = q.val →
      G (ix2 P q) = X0 (ix2 P q') * AX (ix2 P q')) :
    (dat0 V c).arrAt 5 cfg0.N = G := by
  subst h0 h1
  refine (dat0 V c).arrAt_eq_of_cover 5 G (fun t _ => ?_) cover5
  show (cfg0.win 5).cut (grid0.coords t) ((dat0 V c).after 5 t) = _
  rw [after0_5]
  unfold out0_5
  rw [View.canon_unit_zero hz2]
  simp only [View.ld_unit_zero (S := S10000x24) hz2]
  obtain ⟨-, -, -, -, -, -, -, -, -, e50, e51, -⟩ := idx_facts t
  funext y
  obtain ⟨p, q, rfl⟩ : ∃ (p : Fin 10000) (q : Fin 72), y = ix2 p q := ⟨y 0, y 1, eq_ix2 y⟩
  have hP : t.val * 10000 + p.val < 100000 := by have := t_lt t; have := p.isLt; omega
  rw [View.read_apply]
  show _ = G (((cfg0.win 5).blk t).view.emb (ix2 p q))
  have hemb : ((cfg0.win 5).blk t).view.emb (ix2 p q) = ix2 (⟨t.val * 10000 + p.val, hP⟩ : Fin 100000) q := by
    funext a
    apply Fin.ext
    match a with
    | ⟨0, _⟩ => show win0_5.index t (0 : Fin 2) * 10000 + 1 * p.val = t.val * 10000 + p.val; rw [e50]; omega
    | ⟨1, _⟩ => show win0_5.index t (1 : Fin 2) * 72 + 1 * q.val = q.val; rw [e51]; omega
  rw [hemb]
  exact feats_point _ _ _ _ G hG1 hG2 hG3 t.val (fun p j hP => x_blk V c t p j hP) (fun p j hP => ax_blk V c t p j hP) p q hP

/-- THE HIDDEN ARRAY after the grid is any array with the layer's entries (`X0`, `AX` as above; `X2`, `X4` the two
    weight matrices, `X3` the bias). -/
theorem hidden_final (c : Dev nD) (X0 AX : S100000x24.Idx → EReal) (X2 X4 : S32x24.Idx → EReal) (X3 : S32.Idx → EReal)
    (h0 : V c main_arg0 = X0) (h1 : V c main_v23 = AX) (h2 : V c main_arg2 = X2) (h3 : V c main_arg3 = X3)
    (h4 : V c main_arg4 = X4) (G : S100000x32.Idx → EReal)
    (hG : ∀ (P : Fin 100000) (c' : Fin 32), G (ix2 P c')
      = max ((∑ j : Fin 24, AX (ix2 P j) * X2 (ix2 c' j) + X3 (ix1 c')) + ∑ j : Fin 24, X0 (ix2 P j) * X4 (ix2 c' j))
        (Ideal.ofBits .f32 0x00000000#32)) :
    (dat0 V c).arrAt 6 cfg0.N = G := by
  subst h0 h1 h2 h3 h4
  refine (dat0 V c).arrAt_eq_of_cover 6 G (fun t _ => ?_) cover6
  show (cfg0.win 6).cut (grid0.coords t) ((dat0 V c).after 6 t) = _
  rw [after0_6]
  unfold out0_6
  rw [View.canon_unit_zero hz2]
  simp only [View.ld_unit_zero (S := S10000x24) hz2, View.ld_unit_zero (S := S32x24) hz2, View.ld_unit_zero (S := S32) hz1]
  obtain ⟨-, -, -, -, -, -, -, -, -, -, -, e60, e61⟩ := idx_facts t
  funext y
  obtain ⟨p, q, rfl⟩ : ∃ (p : Fin 10000) (q : Fin 32), y = ix2 p q := ⟨y 0, y 1, eq_ix2 y⟩
  have hP : t.val * 10000 + p.val < 100000 := by have := t_lt t; have := p.isLt; omega
  rw [View.read_apply]
  show _ = G (((cfg0.win 6).blk t).view.emb (ix2 p q))
  have hemb : ((cfg0.win 6).blk t).view.emb (ix2 p q) = ix2 (⟨t.val * 10000 + p.val, hP⟩ : Fin 100000) q := by
    funext a
    apply Fin.ext
    match a with
    | ⟨0, _⟩ => show win0_6.index t (0 : Fin 2) * 10000 + 1 * p.val = t.val * 10000 + p.val; rw [e60]; omega
    | ⟨1, _⟩ => show win0_6.index t (1 : Fin 2) * 32 + 1 * q.val = q.val; rw [e61]; omega
  rw [hemb, hG]
  refine (hidden_point _ _ _ _ _ p q).trans ?_
  simp only [x_blk V c t p _ hP, ax_blk V c t p _ hP, wl_blk V c t, bias_blk V c t, wr_blk V c t]

end Cert.KernelIdeal.First

end
-- ==== Proof.Second.lean ====
/-
  The second layer's grid: what its two output arrays hold afterwards.

  Point `t` of the ten works on rows `10000·t … 10000·t + 9999`.  Its final block joins the point's rows of the features
  array (72 lanes) with the embedding `max ((ah·Wlᵀ + bias) + h·Wrᵀ, 0)` of them (16 lanes); its head column is that
  block contracted with the head weights plus the head bias.  Every row belongs to exactly one point, so any array with
  those entries IS the array the grid leaves.
-/
import proofs.«119604_j58428735095026_1_alg».proof.Proof.Gen.KernelIdeal.Frame
import proofs.«119604_j58428735095026_1_alg».proof.Proof.LibLayerEntry
import proofs.«119604_j58428735095026_1_alg».proof.Proof.LibJoinLanes
import Idealize.ShloMosaic.Lib.Pipeline.Value
import Idealize.ShloMosaic.Lib.ValueIdx

set_option maxRecDepth 16384

noncomputable section

namespace Cert.KernelIdeal.Second

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the node arrays' blocks move with the point along the rows, the small
    arrays' one block stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

theorem t_lt (t : Fin cfg1.N) : t.val < 10 := t.isLt

/-! ## The input blocks as rows of the arrays -/

theorem h_blk (c : Dev nD) (t : Fin cfg1.N) (p : Fin 10000) (j : Fin 32) (hP : t.val * 10000 + p.val < 100000) :
    (iblk1 V c 0 t : Vec Ideal S10000x32 .f32) (ix2 p j)
      = (V c main_v24_1 : S100000x32.Idx → EReal) (ix2 (⟨t.val * 10000 + p.val, hP⟩ : Fin 100000) j) := by
  obtain ⟨e00, e01, -⟩ := idx_facts t
  unfold iblk1
  rw [View.read_apply]
  show V c main_v24_1 _ = V c main_v24_1 _
  congr 1
  funext a
  apply Fin.ext
  match a with
  | ⟨0, _⟩ => show win1_0.index t (0 : Fin 2) * 10000 + 1 * p.val = t.val * 10000 + p.val; rw [e00]; omega
  | ⟨1, _⟩ => show win1_0.index t (1 : Fin 2) * 32 + 1 * j.val = j.val; rw [e01]; omega

theorem ah_blk (c : Dev nD) (t : Fin cfg1.N) (p : Fin 10000) (j : Fin 32) (hP : t.val * 10000 + p.val < 100000) :
    (iblk1 V c 1 t : Vec Ideal S10000x32 .f32) (ix2 p j)
      = (V c main_v36 : S100000x32.Idx → EReal) (ix2 (⟨t.val * 10000 + p.val, hP⟩ : Fin 100000) j) := by
  obtain ⟨-, -, e10, e11, -⟩ := idx_facts t
  unfold iblk1
  rw [View.read_apply]
  show V c main_v36 _ = V c main_v36 _
  congr 1
  funext a
  apply Fin.ext
  match a with
  | ⟨0, _⟩ => show win1_1.index t (0 : Fin 2) * 10000 + 1 * p.val = t.val * 10000 + p.val; rw [e10]; omega
  | ⟨1, _⟩ => show win1_1.index t (1 : Fin 2) * 32 + 1 * j.val = j.val; rw [e11]; omega

theorem f_blk (c : Dev nD) (t : Fin cfg1.N) (p : Fin 10000) (j : Fin 72) (hP : t.val * 10000 + p.val < 100000) :
    (iblk1 V c 2 t : Vec Ideal S10000x72 .f32) (ix2 p j)
      = (V c main_v24_0 : S100000x72.Idx → EReal) (ix2 (⟨t.val * 10000 + p.val, hP⟩ : Fin 100000) j) := by
  obtain ⟨-, -, -, -, e20, e21, -⟩ := idx_facts t
  unfold iblk1
  rw [View.read_apply]
  show V c main_v24_0 _ = V c main_v24_0 _
  congr 1
  funext a
  apply Fin.ext
  match a with
  | ⟨0, _⟩ => show win1_2.index t (0 : Fin 2) * 10000 + 1 * p.val = t.val * 10000 + p.val; rw [e20]; omega
  | ⟨1, _⟩ => show win1_2.index t (1 : Fin 2) * 72 + 1 * j.val = j.val; rw [e21]; omega

theorem wl_blk (c : Dev nD) (t : Fin cfg1.N) (q : Fin 16) (j : Fin 32) :
    (iblk1 V c 3 t : Vec Ideal S16x32 .f32) (ix2 q j) = (V c main_arg5 : S16x32.Idx → EReal) (ix2 q j) := by
  obtain ⟨-, -, -, -, -, -, e30, e31, -⟩ := idx_facts t
  unfold iblk1
  rw [View.read_apply]
  show V c main_arg5 _ = V c main_arg5 _
  congr 1
  funext a
  apply Fin.ext
  match a with
  | ⟨0, _⟩ => show win1_3.index t (0 : Fin 2) * 16 + 1 * q.val = q.val; rw [e30]; omega
  | ⟨1, _⟩ => show win1_3.index t (1 : Fin 2) * 32 + 1 * j.val = j.val; rw [e31]; omega

theorem bias_blk (c : Dev nD) (t : Fin cfg1.N) (q : Fin 16) :
    (iblk1 V c 4 t : Vec Ideal S16 .f32) (ix1 q) = (V c main_arg6 : S16.Idx → EReal) (ix1 q) := by
  obtain ⟨-, -, -, -, -, -, -, -, e40, -⟩ := idx_facts t
  unfold iblk1
  rw [View.read_apply]
  show V c main_arg6 _ = V c main_arg6 _
  congr 1
  funext a
  apply Fin.ext
  match a with
  | ⟨0, _⟩ => show win1_4.index t (0 : Fin 1) * 16 + 1 * q.val = q.val; rw [e40]; omega

theorem wr_blk (c : Dev nD) (t : Fin cfg1.N) (q : Fin 16) (j : Fin 32) :
    (iblk1 V c 5 t : Vec Ideal S16x32 .f32) (ix2 q j) = (V c main_arg7 : S16x32.Idx → EReal) (ix2 q j) := by
  obtain ⟨-, -, -, -, -, -, -, -, -, e50, e51, -⟩ := idx_facts t
  unfold iblk1
  rw [View.read_apply]
  show V c main_arg7 _ = V c main_arg7 _
  congr 1
  funext a
  apply Fin.ext
  match a with
  | ⟨0, _⟩ => show win1_5.index t (0 : Fin 2) * 16 + 1 * q.val = q.val; rw [e50]; omega
  | ⟨1, _⟩ => show win1_5.index t (1 : Fin 2) * 32 + 1 * j.val = j.val; rw [e51]; omega

theorem hw_blk (c : Dev nD) (t : Fin cfg1.N) (u : Fin 1) (j : Fin 88) :
    (iblk1 V c 6 t : Vec Ideal S1x88 .f32) (ix2 u j) = (V c main_arg8 : S1x88.Idx → EReal) (ix2 u j) := by
  obtain ⟨-, -, -, -, -, -, -, -, -, -, -, e60, e61, -⟩ := idx_facts t
  unfold iblk1
  rw [View.read_apply]
  show V c main_arg8 _ = V c main_arg8 _
  congr 1
  funext a
  apply Fin.ext
  match a with
  | ⟨0, _⟩ => show win1_6.index t (0 : Fin 2) * 1 + 1 * u.val = u.val; rw [e60]; omega
  | ⟨1, _⟩ => show win1_6.index t (1 : Fin 2) * 88 + 1 * j.val = j.val; rw [e61]; omega

theorem hb_blk (c : Dev nD) (t : Fin cfg1.N) (u : Fin 1) :
    (iblk1 V c 7 t : Vec Ideal S1 .f32) (ix1 u) = (V c main_arg9 : S1.Idx → EReal) (ix1 u) := by
  obtain ⟨-, -, -, -, -, -, -, -, -, -, -, -, -, e70, -⟩ := idx_facts t
  unfold iblk1
  rw [View.read_apply]
  show V c main_arg9 _ = V c main_arg9 _
  congr 1
  funext a
  apply Fin.ext
  match a with
  | ⟨0, _⟩ => show win1_7.index t (0 : Fin 1) * 1 + 1 * u.val = u.val; rw [e70]; omega

/-! ## The matrix unit's two dimension records, read off their lists -/

theorem e_rank : dot_S10000x32_S32x16_S10000x16_1_0_0_1_n_n.contr.rank = 1 := rfl
theorem e_l0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide),
    dif_pos (show (0 : Fin S10000x32.rank) ∈ dot_S10000x32_S32x16_S10000x16_1_0_0_1_n_n.lhsNonContracting by decide)]
  rfl
theorem e_l1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
theorem e_r0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
theorem e_r1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide),
    dif_pos (show (1 : Fin S32x16.rank) ∈ dot_S10000x32_S32x16_S10000x16_1_0_0_1_n_n.rhsNonContracting by decide)]
  rfl

theorem g_rank : dot_S10000x88_S88x1_S10000x1_1_0_0_1_n_n.contr.rank = 1 := rfl
theorem g_l0 (i : S10000x1.Idx) (q : dot_S10000x88_S88x1_S10000x1_1_0_0_1_n_n.contr.Idx) :
    (dot_S10000x88_S88x1_S10000x1_1_0_0_1_n_n.lhsIdx i q 0).val = (i 0).val := by
  unfold DotDims.lhsIdx
  rw [dif_neg (show ¬(0 : Fin S10000x88.rank) ∈ dot_S10000x88_S88x1_S10000x1_1_0_0_1_n_n.lhsBatch by decide),
    dif_pos (show (0 : Fin S10000x88.rank) ∈ dot_S10000x88_S88x1_S10000x1_1_0_0_1_n_n.lhsNonContracting by decide)]
  rfl
theorem g_l1 (i : S10000x1.Idx) (q : dot_S10000x88_S88x1_S10000x1_1_0_0_1_n_n.contr.Idx) :
    (dot_S10000x88_S88x1_S10000x1_1_0_0_1_n_n.lhsIdx i q 1).val = (q ⟨0, by decide⟩).val :=
  dot_S10000x88_S88x1_S10000x1_1_0_0_1_n_n.lhsIdx_val_of_single rfl i q
theorem g_r0 (i : S10000x1.Idx) (q : dot_S10000x88_S88x1_S10000x1_1_0_0_1_n_n.contr.Idx) :
    (dot_S10000x88_S88x1_S10000x1_1_0_0_1_n_n.rhsIdx i q 0).val = (q ⟨0, by decide⟩).val :=
  dot_S10000x88_S88x1_S10000x1_1_0_0_1_n_n.rhsIdx_val_of_single rfl i q
theorem g_r1 (i : S10000x1.Idx) (q : dot_S10000x88_S88x1_S10000x1_1_0_0_1_n_n.contr.Idx) :
    (dot_S10000x88_S88x1_S10000x1_1_0_0_1_n_n.rhsIdx i q 1).val = (i 1).val := by
  unfold DotDims.rhsIdx
  rw [dif_neg (show ¬(1 : Fin S88x1.rank) ∈ dot_S10000x88_S88x1_S10000x1_1_0_0_1_n_n.rhsBatch by decide),
    dif_pos (show (1 : Fin S88x1.rank) ∈ dot_S10000x88_S88x1_S10000x1_1_0_0_1_n_n.rhsNonContracting by decide)]
  rfl

/-! ## The body's two payloads at an entry of the block -/

/-- The embedding at `(p, c)` of the block: the two contractions over the 32 hidden lanes, the bias, the maximum with
    zero. -/
def emb (x0 x2 : Vec Ideal S10000x32 .f32) (x6 x8 : Vec Ideal S16x32 .f32) (x7 : Vec Ideal S16 .f32)
    (p : Fin 10000) (c' : Fin 16) : EReal :=
  max ((∑ j : Fin 32, x2 (ix2 p j) * x6 (ix2 c' j) + x7 (ix1 c')) + ∑ j : Fin 32, x0 (ix2 p j) * x8 (ix2 c' j))
    (Ideal.ofBits .f32 0x00000000#32)

/-- The final block at `(p, q)`: the features rows on the first 72 lanes, the embedding on the last 16. -/
theorem z_point (x0 x2 : Vec Ideal S10000x32 .f32) (x4 : Vec Ideal S10000x72 .f32) (x6 : Vec Ideal S16x32 .f32)
    (x7 : Vec Ideal S16 .f32) (x8 : Vec Ideal S16x32 .f32) (p : Fin 10000) (q : Fin 88) :
    k1_pay1 (F := Ideal) x0 x2 x4 x6 x7 x8 (ix2 p q)
      = if h : q.val < 72 then x4 (ix2 p ⟨q.val, h⟩)
        else emb x0 x2 x6 x8 x7 p ⟨q.val - 72, by have := q.isLt; omega⟩ := by
  unfold k1_pay1
  have hq := q.isLt
  split
  · rename_i h
    refine (Join.join2_first _ _ _ p q h).trans ?_
    rw [shapeCast_self]
  · rename_i h
    refine (Join.join2_second _ _ _ p q (⟨q.val - 72, by omega⟩ : Fin 16) (by show 72 + (q.val - 72) = q.val; omega)).trans ?_
    refine (Layer.kernel_layer_apply dot_S10000x32_S32x16_S10000x16_1_0_0_1_n_n e_rank rfl e_l0 e_l1 e_r0 e_r1
      _ _ _ _ _ _ _ p _).trans ?_
    have e6 : ∀ (j : Fin 32) (c' : Fin 16), transpose S32x16 [1, 0] x6 transposes_S16x32_p1_0_S32x16 (ix2 j c') = x6 (ix2 c' j) :=
      fun j c' => Layer.transpose_swap_apply (α := EReal) x6 _ j c'
    have e8 : ∀ (j : Fin 32) (c' : Fin 16), transpose S32x16 [1, 0] x8 transposes_S16x32_p1_0_S32x16 (ix2 j c') = x8 (ix2 c' j) :=
      fun j c' => Layer.transpose_swap_apply (α := EReal) x8 _ j c'
    rw [shapeCast_self, shapeCast_self, Layer.bias_rows_apply, broadcast_apply]
    simp only [e6, e8]
    rfl

/-- The head column at row `p`: the final block's row contracted with the head weights, plus the head bias. -/
theorem y_point (x0 x2 : Vec Ideal S10000x32 .f32) (x4 : Vec Ideal S10000x72 .f32) (x6 : Vec Ideal S16x32 .f32)
    (x7 : Vec Ideal S16 .f32) (x8 : Vec Ideal S16x32 .f32) (x21 : Vec Ideal S1x88 .f32) (x22 : Vec Ideal S1 .f32)
    (p : Fin 10000) (u : Fin 1) :
    k1_pay2 (F := Ideal) x0 x2 x4 x6 x7 x8 x21 x22 (ix2 p u)
      = ∑ j : Fin 88, k1_pay1 (F := Ideal) x0 x2 x4 x6 x7 x8 (ix2 p j) * x21 (ix2 u j) + x22 (ix1 u) := by
  show addf (matmul _ _ _ _ _) _ (ix2 p u) = _
  refine (Layer.kernel_proj_apply dot_S10000x88_S88x1_S10000x1_1_0_0_1_n_n g_rank rfl g_l0 g_l1 g_r0 g_r1
    _ _ _ _ p u).trans ?_
  have e21 : ∀ j : Fin 88, transpose S88x1 [1, 0] x21 transposes_S1x88_p1_0_S88x1 (ix2 j u) = x21 (ix2 u j) :=
    fun j => Layer.transpose_swap_apply (α := EReal) x21 _ j u
  rw [Layer.bias_rows_apply]
  simp only [e21]

/-! ## What a point writes back, the cover, the arrays after the grid -/

theorem mem_blk8 (t : Fin cfg1.N) (i : S100000x88.Idx) :
    i ∈ ((cfg1.win 8).blk t).view.set ↔ ∀ a : Fin 2, win1_8.index t a * S10000x88.size a ≤ (i a).val
      ∧ (i a).val < win1_8.index t a * S10000x88.size a + S10000x88.size a := by
  show i ∈ ((View.whole main_v37_0).slice (win1_8.rect t)).set ↔ _
  rw [View.set_slice_whole, Rect.mem_set_unit]
  exact Iff.rfl

theorem mem_blk9 (t : Fin cfg1.N) (i : S100000x1.Idx) :
    i ∈ ((cfg1.win 9).blk t).view.set ↔ ∀ a : Fin 2, win1_9.index t a * S10000x1.size a ≤ (i a).val
      ∧ (i a).val < win1_9.index t a * S10000x1.size a + S10000x1.size a := by
  show i ∈ ((View.whole main_v37_1).slice (win1_9.rect t)).set ↔ _
  rw [View.set_slice_whole, Rect.mem_set_unit]
  exact Iff.rfl

theorem cover8 (i : S100000x88.Idx) :
    ∃ t : Fin cfg1.N, (cfg1.win 8).flush t = true ∧ i ∈ ((cfg1.win 8).blk t).view.set := by
  have hi0 : (i 0).val < 100000 := (i 0).isLt
  have hi1 : (i 1).val < 88 := (i 1).isLt
  have hN := N_1
  refine ⟨⟨(i 0).val / 10000, by show (i 0).val / 10000 < grid1.N; omega⟩, flush1_8 _, ?_⟩
  rw [mem_blk8]
  obtain ⟨-, -, -, -, -, -, -, -, -, -, -, -, -, -, e80, e81, -⟩ := idx_facts ⟨(i 0).val / 10000, by show (i 0).val / 10000 < grid1.N; omega⟩
  intro a
  match a with
  | ⟨0, _⟩ =>
    show win1_8.index _ (0 : Fin 2) * 10000 ≤ (i 0).val ∧ (i 0).val < win1_8.index _ (0 : Fin 2) * 10000 + 10000
    rw [e80]; show (i 0).val / 10000 * 10000 ≤ (i 0).val ∧ (i 0).val < (i 0).val / 10000 * 10000 + 10000; omega
  | ⟨1, _⟩ =>
    show win1_8.index _ (1 : Fin 2) * 88 ≤ (i 1).val ∧ (i 1).val < win1_8.index _ (1 : Fin 2) * 88 + 88
    rw [e81]; omega

theorem cover9 (i : S100000x1.Idx) :
    ∃ t : Fin cfg1.N, (cfg1.win 9).flush t = true ∧ i ∈ ((cfg1.win 9).blk t).view.set := by
  have hi0 : (i 0).val < 100000 := (i 0).isLt
  have hi1 : (i 1).val < 1 := (i 1).isLt
  have hN := N_1
  refine ⟨⟨(i 0).val / 10000, by show (i 0).val / 10000 < grid1.N; omega⟩, flush1_9 _, ?_⟩
  rw [mem_blk9]
  obtain ⟨-, -, -, -, -, -, -, -, -, -, -, -, -, -, -, -, e90, e91⟩ := idx_facts ⟨(i 0).val / 10000, by show (i 0).val / 10000 < grid1.N; omega⟩
  intro a
  match a with
  | ⟨0, _⟩ =>
    show win1_9.index _ (0 : Fin 2) * 10000 ≤ (i 0).val ∧ (i 0).val < win1_9.index _ (0 : Fin 2) * 10000 + 10000
    rw [e90]; show (i 0).val / 10000 * 10000 ≤ (i 0).val ∧ (i 0).val < (i 0).val / 10000 * 10000 + 10000; omega
  | ⟨1, _⟩ =>
    show win1_9.index _ (1 : Fin 2) * 1 ≤ (i 1).val ∧ (i 1).val < win1_9.index _ (1 : Fin 2) * 1 + 1
    rw [e91]; omega

/-- The embedding of whole arrays at `(P, c)`: `AH` the aggregated means of the hidden array `H`, the two weight
    matrices, the bias. -/
def Emb (AH H : S100000x32.Idx → EReal) (WL WR : S16x32.Idx → EReal) (B : S16.Idx → EReal) (P : Fin 100000) (c' : Fin 16) :
    EReal :=
  max ((∑ j : Fin 32, AH (ix2 P j) * WL (ix2 c' j) + B (ix1 c')) + ∑ j : Fin 32, H (ix2 P j) * WR (ix2 c' j))
    (Ideal.ofBits .f32 0x00000000#32)

/-- The final block's entry at a point in terms of the whole arrays. -/
theorem z_entry (c : Dev nD) (t : Fin cfg1.N) (p : Fin 10000) (q : Fin 88) (hP : t.val * 10000 + p.val < 100000) :
    k1_pay1 (F := Ideal) (iblk1 V c 0 t) (iblk1 V c 1 t) (iblk1 V c 2 t) (iblk1 V c 3 t) (iblk1 V c 4 t) (iblk1 V c 5 t) (ix2 p q)
      = if h : q.val < 72 then (V c main_v24_0 : S100000x72.Idx → EReal) (ix2 (⟨t.val * 10000 + p.val, hP⟩ : Fin 100000) ⟨q.val, h⟩)
        else Emb (V c main_v36) (V c main_v24_1) (V c main_arg5) (V c main_arg7) (V c main_arg6)
          ⟨t.val * 10000 + p.val, hP⟩ ⟨q.val - 72, by have := q.isLt; omega⟩ := by
  refine (z_point _ _ _ _ _ _ p q).trans ?_
  split
  · rename_i h; exact f_blk V c t p _ hP
  · unfold emb Emb
    simp only [h_blk V c t p _ hP, ah_blk V c t p _ hP, wl_blk V c t, bias_blk V c t, wr_blk V c t]

/-- THE FINAL ARRAY after the grid is any array with the join's entries (`FT` the features array the grid found). -/
theorem z_final (c : Dev nD) (FT : S100000x72.Idx → EReal) (AH H : S100000x32.Idx → EReal) (WL WR : S16x32.Idx → EReal)
    (B : S16.Idx → EReal) (hF : V c main_v24_0 = FT) (hA : V c main_v36 = AH) (hH : V c main_v24_1 = H)
    (h5 : V c main_arg5 = WL) (h6 : V c main_arg6 = B) (h7 : V c main_arg7 = WR) (G : S100000x88.Idx → EReal)
    (hG : ∀ (P : Fin 100000) (q : Fin 88), G (ix2 P q)
      = if h : q.val < 72 then FT (ix2 P ⟨q.val, h⟩)
        else Emb AH H WL WR B P ⟨q.val - 72, by have := q.isLt; omega⟩) :
    (dat1 V c).arrAt 8 cfg1.N = G := by
  subst hF hA hH h5 h6 h7
  refine (dat1 V c).arrAt_eq_of_cover 8 G (fun t _ => ?_) cover8
  show (cfg1.win 8).cut (grid1.coords t) ((dat1 V c).after 8 t) = _
  rw [after1_8]
  unfold out1_8
  rw [View.canon_unit_zero hz2]
  simp only [View.ld_unit_zero (S := S10000x32) hz2, View.ld_unit_zero (S := S10000x72) hz2,
    View.ld_unit_zero (S := S16x32) hz2, View.ld_unit_zero (S := S16) hz1]
  obtain ⟨-, -, -, -, -, -, -, -, -, -, -, -, -, -, e80, e81, -⟩ := idx_facts t
  funext y
  obtain ⟨p, q, rfl⟩ : ∃ (p : Fin 10000) (q : Fin 88), y = ix2 p q := ⟨y 0, y 1, eq_ix2 y⟩
  have hP : t.val * 10000 + p.val < 100000 := by have := t_lt t; have := p.isLt; omega
  rw [View.read_apply]
  show _ = G (((cfg1.win 8).blk t).view.emb (ix2 p q))
  have hemb : ((cfg1.win 8).blk t).view.emb (ix2 p q) = ix2 (⟨t.val * 10000 + p.val, hP⟩ : Fin 100000) q := by
    funext a
    apply Fin.ext
    match a with
    | ⟨0, _⟩ => show win1_8.index t (0 : Fin 2) * 10000 + 1 * p.val = t.val * 10000 + p.val; rw [e80]; omega
    | ⟨1, _⟩ => show win1_8.index t (1 : Fin 2) * 88 + 1 * q.val = q.val; rw [e81]; omega
  rw [hemb, hG]
  exact z_entry V c t p q hP

/-- THE HEAD COLUMN after the grid is any array whose row `P` is the final array's row contracted with the head
    weights `HW` plus the head bias `HB` — the final array being any `Z` with the join's entries. -/
theorem y_final (c : Dev nD) (FT : S100000x72.Idx → EReal) (AH H : S100000x32.Idx → EReal) (WL WR : S16x32.Idx → EReal)
    (B : S16.Idx → EReal) (HW : S1x88.Idx → EReal) (HB : S1.Idx → EReal)
    (hF : V c main_v24_0 = FT) (hA : V c main_v36 = AH) (hH : V c main_v24_1 = H)
    (h5 : V c main_arg5 = WL) (h6 : V c main_arg6 = B) (h7 : V c main_arg7 = WR) (h8 : V c main_arg8 = HW)
    (h9 : V c main_arg9 = HB) (Z : S100000x88.Idx → EReal) (G : S100000x1.Idx → EReal)
    (hZ : ∀ (P : Fin 100000) (q : Fin 88), Z (ix2 P q)
      = if h : q.val < 72 then FT (ix2 P ⟨q.val, h⟩)
        else Emb AH H WL WR B P ⟨q.val - 72, by have := q.isLt; omega⟩)
    (hG : ∀ (P : Fin 100000) (u : Fin 1), G (ix2 P u) = ∑ j : Fin 88, Z (ix2 P j) * HW (ix2 u j) + HB (ix1 u)) :
    (dat1 V c).arrAt 9 cfg1.N = G := by
  subst hF hA hH h5 h6 h7 h8 h9
  refine (dat1 V c).arrAt_eq_of_cover 9 G (fun t _ => ?_) cover9
  show (cfg1.win 9).cut (grid1.coords t) ((dat1 V c).after 9 t) = _
  rw [after1_9]
  unfold out1_9
  rw [View.canon_unit_zero hz2]
  simp only [View.ld_unit_zero (S := S10000x32) hz2, View.ld_unit_zero (S := S10000x72) hz2,
    View.ld_unit_zero (S := S16x32) hz2, View.ld_unit_zero (S := S16) hz1, View.ld_unit_zero (S := S1x88) hz2,
    View.ld_unit_zero (S := S1) hz1]
  obtain ⟨-, -, -, -, -, -, -, -, -, -, -, -, -, -, -, -, e90, e91⟩ := idx_facts t
  funext y
  obtain ⟨p, u, rfl⟩ : ∃ (p : Fin 10000) (u : Fin 1), y = ix2 p u := ⟨y 0, y 1, eq_ix2 y⟩
  have hP : t.val * 10000 + p.val < 100000 := by have := t_lt t; have := p.isLt; omega
  rw [View.read_apply]
  show _ = G (((cfg1.win 9).blk t).view.emb (ix2 p u))
  have hemb : ((cfg1.win 9).blk t).view.emb (ix2 p u) = ix2 (⟨t.val * 10000 + p.val, hP⟩ : Fin 100000) u := by
    funext a
    apply Fin.ext
    match a with
    | ⟨0, _⟩ => show win1_9.index t (0 : Fin 2) * 10000 + 1 * p.val = t.val * 10000 + p.val; rw [e90]; omega
    | ⟨1, _⟩ => show win1_9.index t (1 : Fin 2) * 1 + 1 * u.val = u.val; rw [e91]; omega
  rw [hemb, hG]
  refine (y_point _ _ _ _ _ _ _ _ p u).trans ?_
  simp only [z_entry V c t p _ hP, hZ, hw_blk V c t, hb_blk V c t]

end Cert.KernelIdeal.Second

end
-- ==== Proof.Entries.lean ====
/-
  The reference's arrays read at an entry.

  Each lemma reads one of the reference's arrays — the features, the hidden array, the embedding, the final array,
  the head column — at an entry, down to the aggregated means (kept as named arrays: how they are computed from the
  edge list does not matter here) and the weights.  The forms are the ones the kernel's blocks are read in, so the two
  sides meet term for term.
-/
import proofs.«119604_j58428735095026_1_alg».proof.Proof.Gen.ReferenceIdeal.Read
import proofs.«119604_j58428735095026_1_alg».proof.Proof.LibLayerEntry
import proofs.«119604_j58428735095026_1_alg».proof.Proof.LibJoinLanes
import proofs.«119604_j58428735095026_1_alg».proof.Proof.LibHostKeepdims

set_option maxRecDepth 16384

noncomputable section

namespace Cert.ReferenceIdeal.Entries

open Cert.ReferenceIdeal Cert.ReferenceIdeal.Read
open Idealize.ShloMosaic Idealize.ShloMosaic.ValueIdx

variable (x0 : (⟨S100000x24, .f32⟩ : BufTy).Contents (Elt Ideal)) (x1 : (⟨S2x3200000, .i32⟩ : BufTy).Contents (Elt Ideal))
  (x2 : (⟨S32x24, .f32⟩ : BufTy).Contents (Elt Ideal)) (x3 : (⟨S32, .f32⟩ : BufTy).Contents (Elt Ideal))
  (x4 : (⟨S32x24, .f32⟩ : BufTy).Contents (Elt Ideal)) (x5 : (⟨S16x32, .f32⟩ : BufTy).Contents (Elt Ideal))
  (x6 : (⟨S16, .f32⟩ : BufTy).Contents (Elt Ideal)) (x7 : (⟨S16x32, .f32⟩ : BufTy).Contents (Elt Ideal))
  (x8 : (⟨S1x88, .f32⟩ : BufTy).Contents (Elt Ideal)) (x9 : (⟨S1, .f32⟩ : BufTy).Contents (Elt Ideal))

/-- The aggregated means of the features are computed twice by the same operations of the same arguments. -/
theorem means_again : val_main_v41 (F := Ideal) x0 x1 = val_main_v21 (F := Ideal) x0 x1 := rfl

/-! ## The features array: the three-way join -/

theorem feats_first (P : Fin 100000) (q : Fin 72) (hq : q.val < 24) :
    val_main_v23 (F := Ideal) x0 x1 (ix2 P q) = x0 (ix2 P ⟨q.val, hq⟩) := by
  unfold val_main_v23
  exact Join.join3_first _ _ _ _ P q hq

theorem feats_second (P : Fin 100000) (q : Fin 72) (q' : Fin 24) (h : 24 + q'.val = q.val) :
    val_main_v23 (F := Ideal) x0 x1 (ix2 P q) = val_main_v21 (F := Ideal) x0 x1 (ix2 P q') := by
  unfold val_main_v23
  exact Join.join3_second _ _ _ _ P q q' h

theorem feats_third (P : Fin 100000) (q : Fin 72) (q' : Fin 24) (h : 24 + 24 + q'.val = q.val) :
    val_main_v23 (F := Ideal) x0 x1 (ix2 P q) = x0 (ix2 P q') * val_main_v21 (F := Ideal) x0 x1 (ix2 P q') := by
  unfold val_main_v23
  refine (Join.join3_third _ _ _ _ P q q' h).trans ?_
  unfold val_main_v22
  rfl

/-! ## The hidden array: the first layer -/

theorem hidden_entry (P : Fin 100000) (c' : Fin 32) :
    val_main_v50 (F := Ideal) x0 x1 x2 x3 x4 (ix2 P c')
      = max ((∑ j : Fin 24, val_main_v21 (F := Ideal) x0 x1 (ix2 P j) * x2 (ix2 c' j) + x3 (ix1 c'))
          + ∑ j : Fin 24, x0 (ix2 P j) * x4 (ix2 c' j)) (Ideal.ofBits .f32 0x00000000#32) := by
  refine (Layer.host_layer_apply dot_S100000x24_S24x32_S100000x32_1_0_0_1_n_n rfl rfl lhs_main_v43_0 lhs_main_v43_1
    rhs_main_v43_0 rhs_main_v43_1 none (val_main_v41 (F := Ideal) x0 x1) x0 (val_main_v42 (F := Ideal) x2)
    (val_main_v47 (F := Ideal) x4) (val_main_v45 (F := Ideal) x3) (val_main_call2_v0 (F := Ideal)) P c').trans ?_
  have e42 : ∀ j : Fin 24, val_main_v42 (F := Ideal) x2 (ix2 j c') = x2 (ix2 c' j) :=
    fun j => Layer.transpose_swap_apply (α := EReal) x2 _ j c'
  have e47 : ∀ j : Fin 24, val_main_v47 (F := Ideal) x4 (ix2 j c') = x4 (ix2 c' j) :=
    fun j => Layer.transpose_swap_apply (α := EReal) x4 _ j c'
  have e45 : val_main_v45 (F := Ideal) x3 (ix2 P c') = x3 (ix1 c') :=
    Layer.host_bias_rows_apply (α := EReal) x3 _ _ P c'
  have ez : val_main_call2_v0 (F := Ideal) (ix2 P c') = Ideal.ofBits .f32 0x00000000#32 :=
    HostKeepdims.bcast_scalar_apply _ _ _
  rw [e45, ez, means_again]
  simp only [e42, e47]

/-! ## The embedding: the second layer -/

theorem emb_entry (P : Fin 100000) (c' : Fin 16) :
    val_main_v77 (F := Ideal) x0 x1 x2 x3 x4 x5 x6 x7 (ix2 P c')
      = max ((∑ j : Fin 32, val_main_v68 (F := Ideal) x0 x1 x2 x3 x4 (ix2 P j) * x5 (ix2 c' j) + x6 (ix1 c'))
          + ∑ j : Fin 32, val_main_v50 (F := Ideal) x0 x1 x2 x3 x4 (ix2 P j) * x7 (ix2 c' j))
        (Ideal.ofBits .f32 0x00000000#32) := by
  refine (Layer.host_layer_apply dot_S100000x32_S32x16_S100000x16_1_0_0_1_n_n rfl rfl lhs_main_v70_0 lhs_main_v70_1
    rhs_main_v70_0 rhs_main_v70_1 none (val_main_v68 (F := Ideal) x0 x1 x2 x3 x4) (val_main_v50 (F := Ideal) x0 x1 x2 x3 x4)
    (val_main_v69 (F := Ideal) x5) (val_main_v74 (F := Ideal) x7) (val_main_v72 (F := Ideal) x6)
    (val_main_call4_v0 (F := Ideal)) P c').trans ?_
  have e69 : ∀ j : Fin 32, val_main_v69 (F := Ideal) x5 (ix2 j c') = x5 (ix2 c' j) :=
    fun j => Layer.transpose_swap_apply (α := EReal) x5 _ j c'
  have e74 : ∀ j : Fin 32, val_main_v74 (F := Ideal) x7 (ix2 j c') = x7 (ix2 c' j) :=
    fun j => Layer.transpose_swap_apply (α := EReal) x7 _ j c'
  have e72 : val_main_v72 (F := Ideal) x6 (ix2 P c') = x6 (ix1 c') :=
    Layer.host_bias_rows_apply (α := EReal) x6 _ _ P c'
  have ez : val_main_call4_v0 (F := Ideal) (ix2 P c') = Ideal.ofBits .f32 0x00000000#32 :=
    HostKeepdims.bcast_scalar_apply _ _ _
  rw [e72, ez]
  simp only [e69, e74]

/-! ## The final array: the two-way join -/

theorem final_entry (P : Fin 100000) (q : Fin 88) :
    val_main_v78 (F := Ideal) x0 x1 x2 x3 x4 x5 x6 x7 (ix2 P q)
      = if h : q.val < 72 then val_main_v23 (F := Ideal) x0 x1 (ix2 P ⟨q.val, h⟩)
        else val_main_v77 (F := Ideal) x0 x1 x2 x3 x4 x5 x6 x7 (ix2 P ⟨q.val - 72, by have := q.isLt; omega⟩) := by
  unfold val_main_v78
  have hq := q.isLt
  split
  · rename_i h; exact Join.join2_first _ _ _ P q h
  · rename_i h
    exact Join.join2_second _ _ _ P q (⟨q.val - 72, by omega⟩ : Fin 16) (by show 72 + (q.val - 72) = q.val; omega)

/-! ## The head column -/

theorem head_entry (P : Fin 100000) (u : Fin 1) :
    val_main_v83 (F := Ideal) x0 x1 x2 x3 x4 x5 x6 x7 x8 x9 (ix2 P u)
      = ∑ j : Fin 88, val_main_v78 (F := Ideal) x0 x1 x2 x3 x4 x5 x6 x7 (ix2 P j) * x8 (ix2 u j) + x9 (ix1 u) := by
  refine (Layer.host_proj_apply dot_S100000x88_S88x1_S100000x1_1_0_0_1_n_n rfl rfl lhs_main_v80_0 lhs_main_v80_1
    rhs_main_v80_0 rhs_main_v80_1 none (val_main_v78 (F := Ideal) x0 x1 x2 x3 x4 x5 x6 x7) (val_main_v79 (F := Ideal) x8)
    (val_main_v82 (F := Ideal) x9) P u).trans ?_
  have e79 : ∀ j : Fin 88, val_main_v79 (F := Ideal) x8 (ix2 j u) = x8 (ix2 u j) :=
    fun j => Layer.transpose_swap_apply (α := EReal) x8 _ j u
  have e82 : val_main_v82 (F := Ideal) x9 (ix2 P u) = x9 (ix1 u) :=
    Layer.host_bias_rows_apply (α := EReal) x9 _ _ P u
  rw [e82]
  simp only [e79]

end Cert.ReferenceIdeal.Entries

end
-- ==== Proof.Walk.lean ====
/-
  The buffers the two grids find, walked back to the launch memory.

  Between the launch and the first grid the host slices the edge list into its source and destination rows, counts
  each node's in-degree (ones accumulated onto zeros at the destinations), clips it below at one, takes the reciprocal,
  and forms the aggregated means of the features: the features gathered at the sources, accumulated at the
  destinations, times the reciprocal column.  Between the grids it does the same to the hidden array the first grid
  left.  No host operation and no grid writes an argument.  Each lemma here reads one buffer at one boundary as a term
  of the launch memory; the aggregated means are then restated as sums DIVIDED by the clipped degree, which is how the
  reference spells them.
-/
import proofs.«119604_j58428735095026_1_alg».proof.Proof.Gen.KernelIdeal.Frame
import proofs.«119604_j58428735095026_1_alg».proof.Proof.Gen.ReferenceIdeal.Read
import proofs.«119604_j58428735095026_1_alg».proof.Proof.LibMeanByDegree
import proofs.«119604_j58428735095026_1_alg».proof.Proof.LibStagedRun
import proofs.«119604_j58428735095026_1_alg».proof.Proof.First
import proofs.«119604_j58428735095026_1_alg».proof.Proof.Second
import proofs.«119604_j58428735095026_1_alg».proof.Proof.Entries
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read

variable (m : (ℓ : Loc nD τ sig) → Buf (Elt Ideal) ℓ) (ρ : Dev nD → PrngReg)

/-- "No operation of this stretch writes the buffer": each operation's written set is a singleton of another buffer. -/
macro "unwritten" : tactic => `(tactic| (
  refine List.forall_iff_forall_mem.mp ?_
  simp only [hostOps0, hostOps0_1, hostOps0_2, hostOps1, hostOps2, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The arguments at the first grid's entry -/

theorem W3_arg0 (c : Dev nD) : W3 m ρ c (Proc.devRef .tc main_arg0) = m ((c : Thread nD τ).loc main_arg0) :=
  (after_of_forall_not_mem (b := Proc.devRef .tc main_arg0) _ _ (by unwritten)).trans
    ((after_of_forall_not_mem (b := Proc.devRef .tc main_arg0) _ _ (by unwritten)).trans
      (after_of_forall_not_mem (b := Proc.devRef .tc main_arg0) _ _ (by unwritten)))
theorem W3_arg2 (c : Dev nD) : W3 m ρ c (Proc.devRef .tc main_arg2) = m ((c : Thread nD τ).loc main_arg2) :=
  (after_of_forall_not_mem (b := Proc.devRef .tc main_arg2) _ _ (by unwritten)).trans
    ((after_of_forall_not_mem (b := Proc.devRef .tc main_arg2) _ _ (by unwritten)).trans
      (after_of_forall_not_mem (b := Proc.devRef .tc main_arg2) _ _ (by unwritten)))
theorem W3_arg3 (c : Dev nD) : W3 m ρ c (Proc.devRef .tc main_arg3) = m ((c : Thread nD τ).loc main_arg3) :=
  (after_of_forall_not_mem (b := Proc.devRef .tc main_arg3) _ _ (by unwritten)).trans
    ((after_of_forall_not_mem (b := Proc.devRef .tc main_arg3) _ _ (by unwritten)).trans
      (after_of_forall_not_mem (b := Proc.devRef .tc main_arg3) _ _ (by unwritten)))
theorem W3_arg4 (c : Dev nD) : W3 m ρ c (Proc.devRef .tc main_arg4) = m ((c : Thread nD τ).loc main_arg4) :=
  (after_of_forall_not_mem (b := Proc.devRef .tc main_arg4) _ _ (by unwritten)).trans
    ((after_of_forall_not_mem (b := Proc.devRef .tc main_arg4) _ _ (by unwritten)).trans
      (after_of_forall_not_mem (b := Proc.devRef .tc main_arg4) _ _ (by unwritten)))

theorem W3_arg0' (c : Dev nD) : W3 m ρ c (Proc.devRef .tc main_arg0) = m ((c : Thread nD τ).loc main_arg0) := W3_arg0 m ρ c

/-! ## The clipped in-degree is a nonzero real; the reciprocal column -/

/-- The reference's clipped in-degree at node `i` is a real number that is not zero. -/
theorem clip_real (x1 : (⟨S2x3200000, .i32⟩ : BufTy).Contents (Elt Ideal)) (i : S100000.Idx) :
    ∃ r : ℝ, r ≠ 0 ∧ val_main_v18 (F := Ideal) x1 i = (r : EReal) :=
  Mean.clipped_count_real _ _ _ _ _ (fun i => Mean.zeros_apply _ i) (fun j => Mean.ones_apply _ j)
    (fun i => Mean.ones_apply _ i) i

/-- The reciprocal of the clipped in-degree, as a column. -/
def recip (x1 : (⟨S2x3200000, .i32⟩ : BufTy).Contents (Elt Ideal)) : (⟨S100000x1, .f32⟩ : BufTy).Contents (Elt Ideal) :=
  broadcastInDim S100000x1 ![0] bcast_S100000_S100000x1_0
    (Host.divf (F := Ideal) (broadcastInDim S100000 ![] bcast_S_S100000 (constant (F := Ideal) S_ .f32 0x3F800000#32))
      (val_main_v18 (F := Ideal) x1))

/-! ## Each stretch read from any starting contents -/

theorem s0_row (U : Valuation τ sig (Elt Ideal)) :
    after hostOps0 U (Proc.devRef .tc main_v1) = val_main_v1 (F := Ideal) (U (Proc.devRef .tc main_arg1)) := by
  after_results
  rfl

theorem s0_col (U : Valuation τ sig (Elt Ideal)) :
    after hostOps0 U (Proc.devRef .tc main_v3) = val_main_v3 (F := Ideal) (U (Proc.devRef .tc main_arg1)) := by
  after_results
  rfl

theorem s0_deg (U : Valuation τ sig (Elt Ideal)) :
    after hostOps0 U (Proc.devRef .tc main_v7) = val_main_v17 (F := Ideal) (U (Proc.devRef .tc main_arg1)) := by
  after_results
  rfl

theorem s0_one (U : Valuation τ sig (Elt Ideal)) :
    after hostOps0 U (Proc.devRef .tc main_cst_1) = constant (F := Ideal) S_ .f32 0x3F800000#32 := by
  after_results
  try rfl

theorem s1_clip (U : Valuation τ sig (Elt Ideal)) (x1 : (⟨S2x3200000, .i32⟩ : BufTy).Contents (Elt Ideal))
    (h7 : U (Proc.devRef .tc main_v7) = val_main_v17 (F := Ideal) x1)
    (hc : U (Proc.devRef .tc main_cst_1) = constant (F := Ideal) S_ .f32 0x3F800000#32) :
    after hostOps0_1 U (Proc.devRef .tc main_v8) = val_main_v18 (F := Ideal) x1 := by
  after_results
  simp only [StagedRun.ofBuf_toBuf]
  show maximumf (F := Ideal) (broadcastInDim S100000 ![] bcast_S_S100000
      (id (U (Proc.devRef .tc main_cst_1) : (⟨S_, .f32⟩ : BufTy).Contents (Elt Ideal))))
    (U (Proc.devRef .tc main_v7) : (⟨S100000, .f32⟩ : BufTy).Contents (Elt Ideal)) = _
  rw [h7, hc]
  rfl

theorem s2_recip (U : Valuation τ sig (Elt Ideal)) (x1 : (⟨S2x3200000, .i32⟩ : BufTy).Contents (Elt Ideal))
    (h8 : U (Proc.devRef .tc main_v8) = val_main_v18 (F := Ideal) x1) :
    after hostOps0_2 U (Proc.devRef .tc main_v11) = recip x1 := by
  after_results_simp
  rw [h8]
  rfl

/-- The aggregated means of the features: sums times the reciprocal column, restated as sums divided by the clipped
    in-degree. -/
theorem s2_means (U : Valuation τ sig (Elt Ideal)) (x0 : (⟨S100000x24, .f32⟩ : BufTy).Contents (Elt Ideal))
    (x1 : (⟨S2x3200000, .i32⟩ : BufTy).Contents (Elt Ideal))
    (h0 : U (Proc.devRef .tc main_arg0) = x0) (h1 : U (Proc.devRef .tc main_v1) = val_main_v1 (F := Ideal) x1)
    (h3 : U (Proc.devRef .tc main_v3) = val_main_v3 (F := Ideal) x1)
    (h8 : U (Proc.devRef .tc main_v8) = val_main_v18 (F := Ideal) x1) :
    after hostOps0_2 U (Proc.devRef .tc main_v23) = val_main_v21 (F := Ideal) x0 x1 := by
  after_results_simp
  rw [h0, h1, h3, h8]
  refine (Mean.mul_recip_eq_div _ _ _ (fun i => clip_real x1 i) (fun i => Mean.ones_apply _ i) _ _).trans ?_
  rfl

/-- The aggregated means of the hidden array, likewise. -/
theorem s3_means (U : Valuation τ sig (Elt Ideal)) (x0 : (⟨S100000x24, .f32⟩ : BufTy).Contents (Elt Ideal))
    (x1 : (⟨S2x3200000, .i32⟩ : BufTy).Contents (Elt Ideal)) (x2 : (⟨S32x24, .f32⟩ : BufTy).Contents (Elt Ideal))
    (x3 : (⟨S32, .f32⟩ : BufTy).Contents (Elt Ideal)) (x4 : (⟨S32x24, .f32⟩ : BufTy).Contents (Elt Ideal))
    (hH : U (Proc.devRef .tc main_v24_1) = val_main_v50 (F := Ideal) x0 x1 x2 x3 x4)
    (h1 : U (Proc.devRef .tc main_v1) = val_main_v1 (F := Ideal) x1)
    (h3 : U (Proc.devRef .tc main_v3) = val_main_v3 (F := Ideal) x1)
    (h11 : U (Proc.devRef .tc main_v11) = recip x1) :
    after hostOps1 U (Proc.devRef .tc main_v36) = val_main_v68 (F := Ideal) x0 x1 x2 x3 x4 := by
  after_results_simp
  rw [hH, h1, h3, h11]
  unfold recip
  refine (Mean.mul_recip_eq_div _ _ _ (fun i => clip_real x1 i) (fun i => Mean.ones_apply _ i) _ _).trans ?_
  rfl

/-! ## The chain of boundaries -/

section Chain
variable (c : Dev nD)

theorem W1_row : W1 m ρ c (Proc.devRef .tc main_v1) = val_main_v1 (F := Ideal) (m ((c : Thread nD τ).loc main_arg1)) :=
  s0_row (W0 m ρ c)
theorem W1_col : W1 m ρ c (Proc.devRef .tc main_v3) = val_main_v3 (F := Ideal) (m ((c : Thread nD τ).loc main_arg1)) :=
  s0_col (W0 m ρ c)
theorem W1_deg : W1 m ρ c (Proc.devRef .tc main_v7) = val_main_v17 (F := Ideal) (m ((c : Thread nD τ).loc main_arg1)) :=
  s0_deg (W0 m ρ c)
theorem W1_one : W1 m ρ c (Proc.devRef .tc main_cst_1) = constant (F := Ideal) S_ .f32 0x3F800000#32 :=
  s0_one (W0 m ρ c)
theorem W1_arg0 : W1 m ρ c (Proc.devRef .tc main_arg0) = m ((c : Thread nD τ).loc main_arg0) :=
  after_of_forall_not_mem (b := Proc.devRef .tc main_arg0) _ _ (by unwritten)

theorem W2_clip : W2 m ρ c (Proc.devRef .tc main_v8) = val_main_v18 (F := Ideal) (m ((c : Thread nD τ).loc main_arg1)) :=
  s1_clip (W1 m ρ c) _ (W1_deg m ρ c) (W1_one m ρ c)
theorem W2_row : W2 m ρ c (Proc.devRef .tc main_v1) = val_main_v1 (F := Ideal) (m ((c : Thread nD τ).loc main_arg1)) :=
  (after_of_forall_not_mem (b := Proc.devRef .tc main_v1) _ _ (by unwritten)).trans (W1_row m ρ c)
theorem W2_col : W2 m ρ c (Proc.devRef .tc main_v3) = val_main_v3 (F := Ideal) (m ((c : Thread nD τ).loc main_arg1)) :=
  (after_of_forall_not_mem (b := Proc.devRef .tc main_v3) _ _ (by unwritten)).trans (W1_col m ρ c)
theorem W2_arg0 : W2 m ρ c (Proc.devRef .tc main_arg0) = m ((c : Thread nD τ).loc main_arg0) :=
  (after_of_forall_not_mem (b := Proc.devRef .tc main_arg0) _ _ (by unwritten)).trans (W1_arg0 m ρ c)

theorem W3_means : W3 m ρ c (Proc.devRef .tc main_v23)
    = val_main_v21 (F := Ideal) (m ((c : Thread nD τ).loc main_arg0)) (m ((c : Thread nD τ).loc main_arg1)) :=
  s2_means (W2 m ρ c) _ _ (W2_arg0 m ρ c) (W2_row m ρ c) (W2_col m ρ c) (W2_clip m ρ c)
theorem W3_recip : W3 m ρ c (Proc.devRef .tc main_v11) = recip (m ((c : Thread nD τ).loc main_arg1)) :=
  s2_recip (W2 m ρ c) _ (W2_clip m ρ c)
theorem W3_row : W3 m ρ c (Proc.devRef .tc main_v1) = val_main_v1 (F := Ideal) (m ((c : Thread nD τ).loc main_arg1)) :=
  (after_of_forall_not_mem (b := Proc.devRef .tc main_v1) _ _ (by unwritten)).trans (W2_row m ρ c)
theorem W3_col : W3 m ρ c (Proc.devRef .tc main_v3) = val_main_v3 (F := Ideal) (m ((c : Thread nD τ).loc main_arg1)) :=
  (after_of_forall_not_mem (b := Proc.devRef .tc main_v3) _ _ (by unwritten)).trans (W2_col m ρ c)

/-- A buffer that no stretch before the first grid writes holds its launch contents at the grid's entry. -/
theorem W3_launch (b : Ref sig .tc)
    (h2 : ∀ op ∈ (hostOps0_2 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h0 : ∀ op ∈ (hostOps0 : List (HloOp τ sig (Elt Ideal))), (Proc.devRef .tc b : DevRef τ sig) ∉ op.writes) :
    W3 m ρ c (Proc.devRef .tc b) = m ((c : Thread nD τ).loc b) :=
  (after_of_forall_not_mem _ _ h2).trans ((after_of_forall_not_mem _ _ h1).trans (after_of_forall_not_mem _ _ h0))

/-! ### After the first grid -/

theorem W4_feats : W4 m ρ c (Proc.devRef .tc main_v24_0)
    = val_main_v23 (F := Ideal) (m ((c : Thread nD τ).loc main_arg0)) (m ((c : Thread nD τ).loc main_arg1)) :=
  (W4_arr m ρ c 5).trans (First.feats_final (V3 m ρ) c _ _ (W3_arg0 m ρ c) (W3_means m ρ c) _
    (Cert.ReferenceIdeal.Entries.feats_first _ _) (Cert.ReferenceIdeal.Entries.feats_second _ _) (Cert.ReferenceIdeal.Entries.feats_third _ _))

theorem W4_hidden : W4 m ρ c (Proc.devRef .tc main_v24_1)
    = val_main_v50 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) :=
  (W4_arr m ρ c 6).trans (First.hidden_final (V3 m ρ) c _ _ _ _ _ (W3_arg0 m ρ c) (W3_means m ρ c) (W3_arg2 m ρ c)
    (W3_arg3 m ρ c) (W3_arg4 m ρ c) _ (Cert.ReferenceIdeal.Entries.hidden_entry _ _ _ _ _))

theorem W4_row : W4 m ρ c (Proc.devRef .tc main_v1) = val_main_v1 (F := Ideal) (m ((c : Thread nD τ).loc main_arg1)) :=
  (W4_of_ne m ρ c main_v1 (by decide)).trans (W3_row m ρ c)
theorem W4_col : W4 m ρ c (Proc.devRef .tc main_v3) = val_main_v3 (F := Ideal) (m ((c : Thread nD τ).loc main_arg1)) :=
  (W4_of_ne m ρ c main_v3 (by decide)).trans (W3_col m ρ c)
theorem W4_recip : W4 m ρ c (Proc.devRef .tc main_v11) = recip (m ((c : Thread nD τ).loc main_arg1)) :=
  (W4_of_ne m ρ c main_v11 (by decide)).trans (W3_recip m ρ c)

/-! ### At the second grid's entry -/

theorem W5_means : W5 m ρ c (Proc.devRef .tc main_v36)
    = val_main_v68 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) :=
  s3_means (W4 m ρ c) _ _ _ _ _ (W4_hidden m ρ c) (W4_row m ρ c) (W4_col m ρ c) (W4_recip m ρ c)
theorem W5_hidden : W5 m ρ c (Proc.devRef .tc main_v24_1)
    = val_main_v50 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) :=
  (after_of_forall_not_mem (b := Proc.devRef .tc main_v24_1) _ _ (by unwritten)).trans (W4_hidden m ρ c)
theorem W5_feats : W5 m ρ c (Proc.devRef .tc main_v24_0)
    = val_main_v23 (F := Ideal) (m ((c : Thread nD τ).loc main_arg0)) (m ((c : Thread nD τ).loc main_arg1)) :=
  (after_of_forall_not_mem (b := Proc.devRef .tc main_v24_0) _ _ (by unwritten)).trans (W4_feats m ρ c)

theorem W5_arg5 : W5 m ρ c (Proc.devRef .tc main_arg5) = m ((c : Thread nD τ).loc main_arg5) :=
  (after_of_forall_not_mem (b := Proc.devRef .tc main_arg5) _ _ (by unwritten)).trans
    ((W4_of_ne m ρ c main_arg5 (by decide)).trans (W3_launch m ρ c main_arg5 (by unwritten) (by unwritten) (by unwritten)))
theorem W5_arg6 : W5 m ρ c (Proc.devRef .tc main_arg6) = m ((c : Thread nD τ).loc main_arg6) :=
  (after_of_forall_not_mem (b := Proc.devRef .tc main_arg6) _ _ (by unwritten)).trans
    ((W4_of_ne m ρ c main_arg6 (by decide)).trans (W3_launch m ρ c main_arg6 (by unwritten) (by unwritten) (by unwritten)))
theorem W5_arg7 : W5 m ρ c (Proc.devRef .tc main_arg7) = m ((c : Thread nD τ).loc main_arg7) :=
  (after_of_forall_not_mem (b := Proc.devRef .tc main_arg7) _ _ (by unwritten)).trans
    ((W4_of_ne m ρ c main_arg7 (by decide)).trans (W3_launch m ρ c main_arg7 (by unwritten) (by unwritten) (by unwritten)))
theorem W5_arg8 : W5 m ρ c (Proc.devRef .tc main_arg8) = m ((c : Thread nD τ).loc main_arg8) :=
  (after_of_forall_not_mem (b := Proc.devRef .tc main_arg8) _ _ (by unwritten)).trans
    ((W4_of_ne m ρ c main_arg8 (by decide)).trans (W3_launch m ρ c main_arg8 (by unwritten) (by unwritten) (by unwritten)))
theorem W5_arg9 : W5 m ρ c (Proc.devRef .tc main_arg9) = m ((c : Thread nD τ).loc main_arg9) :=
  (after_of_forall_not_mem (b := Proc.devRef .tc main_arg9) _ _ (by unwritten)).trans
    ((W4_of_ne m ρ c main_arg9 (by decide)).trans (W3_launch m ρ c main_arg9 (by unwritten) (by unwritten) (by unwritten)))

/-! ### After the second grid, and the results -/

/-- The reference's final array has the join's entries over its own features, aggregated means and hidden array. -/
theorem final_join (x0 : (⟨S100000x24, .f32⟩ : BufTy).Contents (Elt Ideal)) (x1 : (⟨S2x3200000, .i32⟩ : BufTy).Contents (Elt Ideal))
    (x2 : (⟨S32x24, .f32⟩ : BufTy).Contents (Elt Ideal)) (x3 : (⟨S32, .f32⟩ : BufTy).Contents (Elt Ideal))
    (x4 : (⟨S32x24, .f32⟩ : BufTy).Contents (Elt Ideal)) (x5 : (⟨S16x32, .f32⟩ : BufTy).Contents (Elt Ideal))
    (x6 : (⟨S16, .f32⟩ : BufTy).Contents (Elt Ideal)) (x7 : (⟨S16x32, .f32⟩ : BufTy).Contents (Elt Ideal))
    (P : Fin 100000) (q : Fin 88) :
    val_main_v78 (F := Ideal) x0 x1 x2 x3 x4 x5 x6 x7 (ix2 P q)
      = if h : q.val < 72 then val_main_v23 (F := Ideal) x0 x1 (ix2 P ⟨q.val, h⟩)
        else Second.Emb (val_main_v68 (F := Ideal) x0 x1 x2 x3 x4) (val_main_v50 (F := Ideal) x0 x1 x2 x3 x4) x5 x7 x6 P
          ⟨q.val - 72, by have := q.isLt; omega⟩ := by
  refine (Cert.ReferenceIdeal.Entries.final_entry x0 x1 x2 x3 x4 x5 x6 x7 P q).trans ?_
  by_cases h : q.val < 72
  · rw [dif_pos h, dif_pos h]
  · rw [dif_neg h, dif_neg h]
    exact Cert.ReferenceIdeal.Entries.emb_entry x0 x1 x2 x3 x4 x5 x6 x7 P _

theorem W6_final : W6 m ρ c (Proc.devRef .tc main_v37_0)
    = val_main_v78 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) :=
  (W6_arr m ρ c 8).trans (Second.z_final (V5 m ρ) c _ _ _ _ _ _ (W5_feats m ρ c) (W5_means m ρ c) (W5_hidden m ρ c)
    (W5_arg5 m ρ c) (W5_arg6 m ρ c) (W5_arg7 m ρ c) _ (final_join _ _ _ _ _ _ _ _))

theorem W6_head : W6 m ρ c (Proc.devRef .tc main_v37_1)
    = val_main_v83 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) :=
  (W6_arr m ρ c 9).trans (Second.y_final (V5 m ρ) c _ _ _ _ _ _ _ _ (W5_feats m ρ c) (W5_means m ρ c) (W5_hidden m ρ c)
    (W5_arg5 m ρ c) (W5_arg6 m ρ c) (W5_arg7 m ρ c) (W5_arg8 m ρ c) (W5_arg9 m ρ c) _ _ (final_join _ _ _ _ _ _ _ _)
    (Cert.ReferenceIdeal.Entries.head_entry _ _ _ _ _ _ _ _ _ _))

/-- THE SECOND RESULT: the final array. -/
theorem W7_final : W7 m ρ c (Proc.devRef .tc main_v37_0)
    = val_main_v78 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) :=
  (after_of_forall_not_mem (b := Proc.devRef .tc main_v37_0) _ _ (by unwritten)).trans (W6_final m ρ c)

/-- THE FIRST RESULT: the head column flattened. -/
theorem W7_head : W7 m ρ c (Proc.devRef .tc main_v38)
    = val_main_v84 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  show after hostOps2 (W6 m ρ c) (Proc.devRef .tc main_v38) = _
  after_results
  rw [W6_head m ρ c]
  rfl

end Chain

end Cert.KernelIdeal.Walk

end
-- ==== Proof.lean ====
/-
  The first layer `h = max ((ax·W1lᵀ + b1) + x·W1rᵀ, 0)` with the features `[x | ax | x·ax]`, the second layer
  `emb = max ((ah·W2lᵀ + b2) + h·W2rᵀ, 0)`, the final array `z = [feats | emb]` and the head `z·wᵀ + b`, where
  `ax` and `ah` are the neighbour means of `x` and of `h`: the features gathered at each edge's source, accumulated at
  its destination, over the in-degree clipped below at one.  The kernel program computes the two layers block of rows
  by block of rows on two grids and the means on the host as sums TIMES the reciprocal of the clipped degree; the
  reference computes everything on the host and the means as sums DIVIDED by the clipped degree.

  On the extended reals the two programs end with the same arrays.  The clipped degree is a count clipped at one, a
  real number that is not zero, and dividing by such a number is multiplying by its reciprocal whatever the dividend;
  every other step is the same expression on both sides (a matrix-unit product into a zero accumulator and a host
  contraction are the same sum; a change of float format is the identity).  No finiteness of the inputs is used.

  The kernel's run: every buffer ends at the fold of the host stretches and of the two grids' write-backs over the
  launch memory; the two result buffers read back through that fold are the reference's own terms of the arguments.
  The reference's run is its sequence of host operations.  The idealization rewrote nothing, so that claim is trivial.
-/
import proofs.«119604_j58428735095026_1_alg».proof.Defs
import proofs.«119604_j58428735095026_1_alg».proof.Proof.Gen.Kernel
import proofs.«119604_j58428735095026_1_alg».proof.Proof.Gen.Kernel.Frame
import proofs.«119604_j58428735095026_1_alg».proof.Proof.Gen.KernelIdeal
import proofs.«119604_j58428735095026_1_alg».proof.Proof.Gen.KernelIdeal.Frame
import proofs.«119604_j58428735095026_1_alg».proof.Proof.Gen.ReferenceIdeal
import proofs.«119604_j58428735095026_1_alg».proof.Proof.Gen.ReferenceIdeal.Run
import proofs.«119604_j58428735095026_1_alg».proof.Proof.Gen.ReferenceIdeal.Read
import proofs.«119604_j58428735095026_1_alg».proof.Proof.Gen.Pre_finite_inputs
import proofs.«119604_j58428735095026_1_alg».proof.Proof.KernelRun
import proofs.«119604_j58428735095026_1_alg».proof.Proof.Walk
import Idealize.ShloMosaic.Adequacy
import Idealize.ShloMosaic.Init

set_option maxRecDepth 16384

noncomputable section

namespace Cert.Proof

open Idealize.ShloMosaic Idealize.ShloMosaic.TcCoe Idealize.SL.Sem

/-- The kernel program at the word level runs, and its arguments end unchanged. -/
theorem frame_kernel : Cert.frame_Kernel := fun m ρ _ => Cert.Kernel.Gen.frame m ρ

/-- The idealized kernel program runs, and its arguments end unchanged. -/
theorem frame_ideal : Cert.frame_KernelIdeal := fun m ρ _ => Cert.KernelIdeal.Gen.frame m ρ

/-- The idealized reference runs, and its arguments end unchanged: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The idealized kernel program's run with its two results named: the head column flattened and the final array,
    each the reference's term of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v38)
          = Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_v37_0)
          = Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono (fun r h c =>
    ⟨(h c _ (Cert.KernelIdeal.Gen.mem_uc Cert.KernelIdeal.main_v38 (by decide))).trans (Cert.KernelIdeal.Walk.W7_head m ρ c),
     (h c _ (Cert.KernelIdeal.Gen.mem_uc Cert.KernelIdeal.main_v37_0 (by decide))).trans (Cert.KernelIdeal.Walk.W7_final m ρ c),
     (h c _ (Cert.KernelIdeal.Gen.mem_uc Cert.KernelIdeal.main_arg0 (by decide))).trans (Cert.KernelIdeal.Gen.W7_main_arg0 m ρ c),
     (h c _ (Cert.KernelIdeal.Gen.mem_uc Cert.KernelIdeal.main_arg1 (by decide))).trans (Cert.KernelIdeal.Gen.W7_main_arg1 m ρ c),
     (h c _ (Cert.KernelIdeal.Gen.mem_uc Cert.KernelIdeal.main_arg2 (by decide))).trans (Cert.KernelIdeal.Gen.W7_main_arg2 m ρ c),
     (h c _ (Cert.KernelIdeal.Gen.mem_uc Cert.KernelIdeal.main_arg3 (by decide))).trans (Cert.KernelIdeal.Gen.W7_main_arg3 m ρ c),
     (h c _ (Cert.KernelIdeal.Gen.mem_uc Cert.KernelIdeal.main_arg4 (by decide))).trans (Cert.KernelIdeal.Gen.W7_main_arg4 m ρ c),
     (h c _ (Cert.KernelIdeal.Gen.mem_uc Cert.KernelIdeal.main_arg5 (by decide))).trans (Cert.KernelIdeal.Gen.W7_main_arg5 m ρ c),
     (h c _ (Cert.KernelIdeal.Gen.mem_uc Cert.KernelIdeal.main_arg6 (by decide))).trans (Cert.KernelIdeal.Gen.W7_main_arg6 m ρ c),
     (h c _ (Cert.KernelIdeal.Gen.mem_uc Cert.KernelIdeal.main_arg7 (by decide))).trans (Cert.KernelIdeal.Gen.W7_main_arg7 m ρ c),
     (h c _ (Cert.KernelIdeal.Gen.mem_uc Cert.KernelIdeal.main_arg8 (by decide))).trans (Cert.KernelIdeal.Gen.W7_main_arg8 m ρ c),
     (h c _ (Cert.KernelIdeal.Gen.mem_uc Cert.KernelIdeal.main_arg9 (by decide))).trans (Cert.KernelIdeal.Gen.W7_main_arg9 m ρ c)⟩)
    (Cert.KernelIdeal.Whole.run_all (F := Ideal) m ρ)

/-- From memories agreeing on the arguments both programs run and end with the same two results. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v84_eq, a0, a1, a2, a3, a4, a5, a6, a7, a8, a9]
  · rw [Cert.ReferenceIdeal.Read.val_main_v78_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
